-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x400000 : Shape := ⟨2, ![2, 400000]⟩
abbrev S512x512 : Shape := ⟨2, ![512, 512]⟩
abbrev S512 : Shape := ⟨1, ![512]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg5 : FVec F S512 .f32) (main_arg6 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S50000x512 .f32) (main_arg1 : IVec S2x400000 32) (main_arg2 : FVec F S512x512 .f32) (main_arg3 : FVec F S512 .f32) (main_arg4 : FVec F S512x512 .f32) (main_arg5 : FVec F S512 .f32) (main_arg6 : FVec F S512 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg4
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg5 main_arg6 main_v13 main_v16
-- ==== Kernel.lean ====
abbrev S50000x512 : Shape := ⟨2, ![50000, 512]⟩
abbrev S2x400000 : Shape := ⟨2, ![2, 400000]⟩
abbrev S512x512 : Shape := ⟨2, ![512, 512]⟩
abbrev S512 : Shape := ⟨1, ![512]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x512 : Shape := ⟨2, ![400000, 512]⟩
abbrev S50000 : Shape := ⟨1, ![50000]⟩
abbrev S50000x1 : Shape := ⟨2, ![50000, 1]⟩
abbrev S1x512 : Shape := ⟨2, ![1, 512]⟩
abbrev S1000x512 : Shape := ⟨2, ![1000, 512]⟩

abbrev nBuf : Space → Nat
  | .hbm => 79
  | .vmem => 19
  | .smem => 0
  | _ => 0

abbrev bufTy : (tb : Table) → Fin (tcTables nBuf tb) → BufTy
  | .hbm, ⟨0, _⟩ => ⟨S50000x512, .f32⟩
  | .hbm, ⟨1, _⟩ => ⟨S2x400000, .i32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512, .f32⟩
  | .hbm, ⟨7, _⟩ => ⟨S1x400000, .i32⟩
  | .hbm, ⟨8, _⟩ => ⟨S400000, .i32⟩
  | .hbm, ⟨9, _⟩ => ⟨S1x400000, .i32⟩
  | .hbm, ⟨10, _⟩ => ⟨S400000, .i32⟩
  | .hbm, ⟨11, _⟩ => ⟨S_, .i32⟩
  | .hbm, ⟨12, _⟩ => ⟨S400000, .i32⟩
  | .hbm, ⟨13, _⟩ => ⟨S400000, .i1⟩
  | .hbm, ⟨14, _⟩ => ⟨S_, .i32⟩
  | .hbm, ⟨15, _⟩ => ⟨S400000, .i32⟩
  | .hbm, ⟨16, _⟩ => ⟨S400000, .i32⟩
  | .hbm, ⟨17, _⟩ => ⟨S400000, .i32⟩
  | .hbm, ⟨18, _⟩ => ⟨S400000x1, .i32⟩
  | .hbm, ⟨19, _⟩ => ⟨S400000x512, .f32⟩
  | .hbm, ⟨20, _⟩ => ⟨S_, .f32⟩
  | .hbm, ⟨21, _⟩ => ⟨S50000x512, .f32⟩
  | .hbm, ⟨22, _⟩ => ⟨S400000x1, .i32⟩
  | .hbm, ⟨23, _⟩ => ⟨S50000x512, .f32⟩
  | .hbm, ⟨24, _⟩ => ⟨S_, .f32⟩
  | .hbm, ⟨25, _⟩ => ⟨S400000, .f32⟩
  | .hbm, ⟨26, _⟩ => ⟨S_, .f32⟩
  | .hbm, ⟨27, _⟩ => ⟨S50000, .f32⟩
  | .hbm, ⟨28, _⟩ => ⟨S400000x1, .i32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S50000x512, .f32⟩
  | .hbm, ⟨35, _⟩ => ⟨S50000x512, .f32⟩
  | .hbm, ⟨36, _⟩ => ⟨S512x512, .f32⟩
  | .hbm, ⟨37, _⟩ => ⟨S512x512, .bf16⟩
  | .hbm, ⟨38, _⟩ => ⟨S512x512, .f32⟩
  | .hbm, ⟨39, _⟩ => ⟨S512x512, .bf16⟩
  | .hbm, ⟨40, _⟩ => ⟨S1x512, .f32⟩
  | .hbm, ⟨41, _⟩ => ⟨S50000x512, .f32⟩
  | .hbm, ⟨42, _⟩ => ⟨S_, .f32⟩
  | .hbm, ⟨43, _⟩ => ⟨S512, .f32⟩
  | .hbm, ⟨44, _⟩ => ⟨S_, .f32⟩
  | .hbm, ⟨45, _⟩ => ⟨S512, .f32⟩
  | .hbm, ⟨46, _⟩ => ⟨S512, .f32⟩
  | .hbm, ⟨47, _⟩ => ⟨S_, .i32⟩
  | .hbm, ⟨48, _⟩ => ⟨S_, .f32⟩
  | .hbm, ⟨49, _⟩ => ⟨S512, .f32⟩
  | .hbm, ⟨50, _⟩ => ⟨S1x512, .f32⟩
  | .hbm, ⟨51, _⟩ => ⟨S_, .f32⟩
  | .hbm, ⟨52, _⟩ => ⟨S1x512, .f32⟩
  | .hbm, ⟨53, _⟩ => ⟨S1x512, .f32⟩
  | .hbm, ⟨54, _⟩ => ⟨S50000x512, .f32⟩
  | .hbm, ⟨55, _⟩ => ⟨S50000x512, .f32⟩
  | .hbm, ⟨56, _⟩ => ⟨S50000x512, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S512, .f32⟩
  | .hbm, ⟨62, _⟩ => ⟨S512, .f32⟩
  | .hbm, ⟨63, _⟩ => ⟨S512, .f32⟩
  | .hbm, ⟨64, _⟩ => ⟨S_, .f32⟩
  | .hbm, ⟨65, _⟩ => ⟨S_, .i1⟩
  | .hbm, ⟨66, _⟩ => ⟨S_, .f32⟩
  | .hbm, ⟨67, _⟩ => ⟨S_, .f32⟩
  | .hbm, ⟨68, _⟩ => ⟨S512, .f32⟩
  | .hbm, ⟨69, _⟩ => ⟨S512, .f32⟩
  | .hbm, ⟨70, _⟩ => ⟨S_, .f32⟩
  | .hbm, ⟨71, _⟩ => ⟨S512, .f32⟩
  | .hbm, ⟨72, _⟩ => ⟨S512, .f32⟩
  | .hbm, ⟨73, _⟩ => ⟨S512, .f32⟩
  | .hbm, ⟨74, _⟩ => ⟨S1x512, .f32⟩
  | .hbm, ⟨75, _⟩ => ⟨S1x512, .f32⟩
  | .hbm, ⟨76, _⟩ => ⟨S1x512, .f32⟩
  | .hbm, ⟨77, _⟩ => ⟨S1x512, .f32⟩
  | .hbm, ⟨78, _⟩ => ⟨S50000x512, .f32⟩
  | .local _ .vmem, ⟨0, _⟩ => ⟨S1000x512, .f32⟩
  | .local _ .vmem, ⟨1, _⟩ => ⟨S1000x512, .f32⟩
  | .local _ .vmem, ⟨2, _⟩ => ⟨S1000x512, .f32⟩
  | .local _ .vmem, ⟨3, _⟩ => ⟨S1000x512, .f32⟩
  | .local _ .vmem, ⟨4, _⟩ => ⟨S512x512, .bf16⟩
  | .local _ .vmem, ⟨5, _⟩ => ⟨S512x512, .bf16⟩
  | .local _ .vmem, ⟨6, _⟩ => ⟨S1x512, .f32⟩
  | .local _ .vmem, ⟨7, _⟩ => ⟨S1000x512, .f32⟩
  | .local _ .vmem, ⟨8, _⟩ => ⟨S1000x512, .f32⟩
  | .local _ .vmem, ⟨9, _⟩ => ⟨S1000x512, .f32⟩
  | .local _ .vmem, ⟨10, _⟩ => ⟨S1000x512, .f32⟩
  | .local _ .vmem, ⟨11, _⟩ => ⟨S1000x512, .f32⟩
  | .local _ .vmem, ⟨12, _⟩ => ⟨S1000x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1000x512, .f32⟩
  | .local _ .vmem, ⟨18, _⟩ => ⟨S1000x512, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_c_6 : Ref sig .tc := ⟨.hbm, 47, rfl⟩
abbrev main_call0_cst : Ref sig .tc := ⟨.hbm, 48, rfl⟩
abbrev main_call0_v0 : Ref sig .tc := ⟨.hbm, 49, rfl⟩
abbrev main_call0_v1 : Ref sig .tc := ⟨.hbm, 50, rfl⟩
abbrev main_call0_cst_0 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_call0_v5 : Ref sig .tc := ⟨.hbm, 55, rfl⟩
abbrev main_call0_v6 : Ref sig .tc := ⟨.hbm, 56, rfl⟩
abbrev main_call0_v7 : Ref sig .tc := ⟨.hbm, 57, rfl⟩
abbrev main_call0_cst_1 : Ref sig .tc := ⟨.hbm, 58, rfl⟩
abbrev main_call0_v8 : Ref sig .tc := ⟨.hbm, 59, rfl⟩
abbrev main_call0_cst_2 : Ref sig .tc := ⟨.hbm, 60, rfl⟩
abbrev main_call0_v9 : Ref sig .tc := ⟨.hbm, 61, rfl⟩
abbrev main_call0_v10 : Ref sig .tc := ⟨.hbm, 62, rfl⟩
abbrev main_call0_v11 : Ref sig .tc := ⟨.hbm, 63, rfl⟩
abbrev main_call0_cst_3 : Ref sig .tc := ⟨.hbm, 64, rfl⟩
abbrev main_call0_v12 : Ref sig .tc := ⟨.hbm, 65, rfl⟩
abbrev main_call0_cst_4 : Ref sig .tc := ⟨.hbm, 66, rfl⟩
abbrev main_call0_call0_v0 : Ref sig .tc := ⟨.hbm, 67, rfl⟩
abbrev main_call0_call0_v1 : Ref sig .tc := ⟨.hbm, 68, rfl⟩
abbrev main_v32 : Ref sig .tc := ⟨.hbm, 69, rfl⟩
abbrev main_cst_7 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem6_1 : DmaSem sig := 18

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1000x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S50000x512 : S_.BroadcastsInDim S50000x512 (![] : Fin 0 → Fin S50000x512.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x512_0_1 : S50000x1.BroadcastsInDim S50000x512 (![0, 1] : Fin 2 → Fin S50000x512.rank)
  transposes_S512x512_S512x512_1_0 : S512x512.Transposes [1, 0] S512x512
  bitsLt_bf16_f32 : FTy.bits .bf16 < FTy.bits .f32
  shapeCasts_S512_S1x512 : S512.ShapeCasts S1x512
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  reducesTo_S50000x512_S512_d0 : S50000x512.ReducesTo [0] S512
  h_S_ : 0 < S_.numel
  bcast_S_S512 : S_.BroadcastsInDim S512 (![] : Fin 0 → Fin S512.rank)
  bcast_S512_S1x512_1 : S512.BroadcastsInDim S1x512 (![1] : Fin 1 → Fin S1x512.rank)
  bcast_S_S1x512 : S_.BroadcastsInDim S1x512 (![] : Fin 0 → Fin S1x512.rank)
  bcast_S1x512_S50000x512_0_1 : S1x512.BroadcastsInDim S50000x512 (![0, 1] : Fin 2 → Fin S50000x512.rank)
  gather_S50000x512_S400000x1_S400000x512_1_0_n_n_0_1_1512_wf : GatherDims.WF S50000x512 S400000x1 S400000x512 [1] [0] [] [0] [] 1 ![1, 512]
  scatter_S50000x512_S400000x1_S400000x512_1_0_0_1_wf : ScatterDims.WF S50000x512 S400000x1 S400000x512 [1] [0] [0] 1
  scatter_S50000_S400000x1_S400000_n_0_0_1_wf : ScatterDims.WF S50000 S400000x1 S400000 [] [0] [0] 1
  dot_S1000x512_S512x512_S1000x512_1_0_0_1_n_n_wf : DotDims.WF S1000x512 S512x512 S1000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S50000x512.size a
  hwx0_0 : ∀ i : grid0.Coords, EltTy.bits .f32 = 32 ∨ (Rect.block (s := S50000x512) S1000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x512.size a ≤ S50000x512.size a
  hwx0_1 : ∀ i : grid0.Coords, EltTy.bits .f32 = 32 ∨ (Rect.block (s := S50000x512) S1000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x512.size a ≤ S50000x512.size a
  hwx0_5 : ∀ i : grid0.Coords, EltTy.bits .f32 = 32 ∨ (Rect.block (s := S50000x512) S1000x512.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x512.size a ≤ S50000x512.size a
  hwx1_0 : ∀ i : grid1.Coords, EltTy.bits .f32 = 32 ∨ (Rect.block (s := S50000x512) S1000x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x512.size a ≤ S50000x512.size a
  hwx1_1 : ∀ i : grid1.Coords, EltTy.bits .f32 = 32 ∨ (Rect.block (s := S50000x512) S1000x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x512.size a ≤ S1x512.size a
  hwx1_5 : ∀ i : grid1.Coords, EltTy.bits .f32 = 32 ∨ (Rect.block (s := S1x512) S1x512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1000x512.size a ≤ S50000x512.size a
  hwx1_6 : ∀ i : grid1.Coords, EltTy.bits .f32 = 32 ∨ (Rect.block (s := S50000x512) S1000x512.size (cc1_transform_6 i) (hinb1_6 i)).WholeWords (EltTy.packing .f32)

variable [Facts₀]

def gather_S50000x512_S400000x1_S400000x512_1_0_n_n_0_1_1512 : GatherDims S50000x512 S400000x1 S400000x512 where
  offsetDims := [1]
  collapsedSliceDims := [0]
  operandBatchingDims := []
  startIndicesBatchingDims := []
  startIndexMap := [0]
  indexVectorDim := 1
  sliceSizes := ![1, 512]
  wf := gather_S50000x512_S400000x1_S400000x512_1_0_n_n_0_1_1512_wf
def scatter_S50000x512_S400000x1_S400000x512_1_0_0_1 : ScatterDims S50000x512 S400000x1 S400000x512 where
  updateWindowDims := [1]
  insertedWindowDims := [0]
  scatterDimsToOperandDims := [0]
  indexVectorDim := 1
  wf := scatter_S50000x512_S400000x1_S400000x512_1_0_0_1_wf
def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf

abbrev win0_0 : Pipeline.Window sig grid0 :=
  Pipeline.Window.ofSpec (Memref.whole main_v22) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S1000x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v28) S1000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1000x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v37) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S1x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v40) S1000x512.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x512 : Shape := ⟨2, ![50000, 512]⟩
abbrev S2x400000 : Shape := ⟨2, ![2, 400000]⟩
abbrev S512x512 : Shape := ⟨2, ![512, 512]⟩
abbrev S512 : Shape := ⟨1, ![512]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x512 : Shape := ⟨2, ![400000, 512]⟩
abbrev S50000 : Shape := ⟨1, ![50000]⟩
abbrev S50000x1 : Shape := ⟨2, ![50000, 1]⟩
abbrev S1x512 : Shape := ⟨2, ![1, 512]⟩

abbrev nBuf : Space → Nat
  | .hbm => 92
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S2x400000, .i32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512, .f32⟩
  | .hbm, ⟨7, _⟩ => ⟨S1x400000, .i32⟩
  | .hbm, ⟨8, _⟩ => ⟨S400000, .i32⟩
  | .hbm, ⟨9, _⟩ => ⟨S1x400000, .i32⟩
  | .hbm, ⟨10, _⟩ => ⟨S400000, .i32⟩
  | .hbm, ⟨11, _⟩ => ⟨S_, .i32⟩
  | .hbm, ⟨12, _⟩ => ⟨S400000, .i32⟩
  | .hbm, ⟨13, _⟩ => ⟨S400000, .i1⟩
  | .hbm, ⟨14, _⟩ => ⟨S_, .i32⟩
  | .hbm, ⟨15, _⟩ => ⟨S400000, .i32⟩
  | .hbm, ⟨16, _⟩ => ⟨S400000, .i32⟩
  | .hbm, ⟨17, _⟩ => ⟨S400000, .i32⟩
  | .hbm, ⟨18, _⟩ => ⟨S400000x1, .i32⟩
  | .hbm, ⟨19, _⟩ => ⟨S400000x512, .f32⟩
  | .hbm, ⟨20, _⟩ => ⟨S_, .f32⟩
  | .hbm, ⟨21, _⟩ => ⟨S50000x512, .f32⟩
  | .hbm, ⟨22, _⟩ => ⟨S400000x1, .i32⟩
  | .hbm, ⟨23, _⟩ => ⟨S50000x512, .f32⟩
  | .hbm, ⟨24, _⟩ => ⟨S_, .f32⟩
  | .hbm, ⟨25, _⟩ => ⟨S400000, .f32⟩
  | .hbm, ⟨26, _⟩ => ⟨S_, .f32⟩
  | .hbm, ⟨27, _⟩ => ⟨S50000, .f32⟩
  | .hbm, ⟨28, _⟩ => ⟨S400000x1, .i32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S50000x512, .f32⟩
  | .hbm, ⟨35, _⟩ => ⟨S50000x512, .f32⟩
  | .hbm, ⟨36, _⟩ => ⟨S512x512, .f32⟩
  | .hbm, ⟨37, _⟩ => ⟨S50000x512, .f32⟩
  | .hbm, ⟨38, _⟩ => ⟨S1x512, .f32⟩
  | .hbm, ⟨39, _⟩ => ⟨S50000x512, .f32⟩
  | .hbm, ⟨40, _⟩ => ⟨S50000x512, .f32⟩
  | .hbm, ⟨41, _⟩ => ⟨S512x512, .f32⟩
  | .hbm, ⟨42, _⟩ => ⟨S50000x512, .f32⟩
  | .hbm, ⟨43, _⟩ => ⟨S50000x512, .f32⟩
  | .hbm, ⟨44, _⟩ => ⟨S_, .f32⟩
  | .hbm, ⟨45, _⟩ => ⟨S512, .f32⟩
  | .hbm, ⟨46, _⟩ => ⟨S_, .f32⟩
  | .hbm, ⟨47, _⟩ => ⟨S512, .f32⟩
  | .hbm, ⟨48, _⟩ => ⟨S512, .f32⟩
  | .hbm, ⟨49, _⟩ => ⟨S_, .i32⟩
  | .hbm, ⟨50, _⟩ => ⟨S_, .f32⟩
  | .hbm, ⟨51, _⟩ => ⟨S512, .f32⟩
  | .hbm, ⟨52, _⟩ => ⟨S1x512, .f32⟩
  | .hbm, ⟨53, _⟩ => ⟨S_, .f32⟩
  | .hbm, ⟨54, _⟩ => ⟨S1x512, .f32⟩
  | .hbm, ⟨55, _⟩ => ⟨S1x512, .f32⟩
  | .hbm, ⟨56, _⟩ => ⟨S50000x512, .f32⟩
  | .hbm, ⟨57, _⟩ => ⟨S50000x512, .f32⟩
  | .hbm, ⟨58, _⟩ => ⟨S50000x512, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S512, .f32⟩
  | .hbm, ⟨64, _⟩ => ⟨S512, .f32⟩
  | .hbm, ⟨65, _⟩ => ⟨S512, .f32⟩
  | .hbm, ⟨66, _⟩ => ⟨S_, .f32⟩
  | .hbm, ⟨67, _⟩ => ⟨S_, .i1⟩
  | .hbm, ⟨68, _⟩ => ⟨S_, .f32⟩
  | .hbm, ⟨69, _⟩ => ⟨S_, .f32⟩
  | .hbm, ⟨70, _⟩ => ⟨S512, .f32⟩
  | .hbm, ⟨71, _⟩ => ⟨S512, .f32⟩
  | .hbm, ⟨72, _⟩ => ⟨S1x512, .f32⟩
  | .hbm, ⟨73, _⟩ => ⟨S50000x512, .f32⟩
  | .hbm, ⟨74, _⟩ => ⟨S50000x512, .f32⟩
  | .hbm, ⟨75, _⟩ => ⟨S_, .f32⟩
  | .hbm, ⟨76, _⟩ => ⟨S512, .f32⟩
  | .hbm, ⟨77, _⟩ => ⟨S512, .f32⟩
  | .hbm, ⟨78, _⟩ => ⟨S512, .f32⟩
  | .hbm, ⟨79, _⟩ => ⟨S1x512, .f32⟩
  | .hbm, ⟨80, _⟩ => ⟨S50000x512, .f32⟩
  | .hbm, ⟨81, _⟩ => ⟨S50000x512, .f32⟩
  | .hbm, ⟨82, _⟩ => ⟨S1x512, .f32⟩
  | .hbm, ⟨83, _⟩ => ⟨S50000x512, .f32⟩
  | .hbm, ⟨84, _⟩ => ⟨S50000x512, .f32⟩
  | .hbm, ⟨85, _⟩ => ⟨S1x512, .f32⟩
  | .hbm, ⟨86, _⟩ => ⟨S50000x512, .f32⟩
  | .hbm, ⟨87, _⟩ => ⟨S50000x512, .f32⟩
  | .hbm, ⟨88, _⟩ => ⟨S_, .f32⟩
  | .hbm, ⟨89, _⟩ => ⟨S50000x512, .f32⟩
  | .hbm, ⟨90, _⟩ => ⟨S50000x512, .f32⟩
  | .hbm, ⟨91, _⟩ => ⟨S50000x512, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_c_6 : Ref sig .tc := ⟨.hbm, 49, rfl⟩
abbrev main_call0_cst : Ref sig .tc := ⟨.hbm, 50, rfl⟩
abbrev main_call0_v0 : Ref sig .tc := ⟨.hbm, 51, rfl⟩
abbrev main_call0_v1 : Ref sig .tc := ⟨.hbm, 52, rfl⟩
abbrev main_call0_cst_0 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_call0_v5 : Ref sig .tc := ⟨.hbm, 57, rfl⟩
abbrev main_call0_v6 : Ref sig .tc := ⟨.hbm, 58, rfl⟩
abbrev main_call0_v7 : Ref sig .tc := ⟨.hbm, 59, rfl⟩
abbrev main_call0_cst_1 : Ref sig .tc := ⟨.hbm, 60, rfl⟩
abbrev main_call0_v8 : Ref sig .tc := ⟨.hbm, 61, rfl⟩
abbrev main_call0_cst_2 : Ref sig .tc := ⟨.hbm, 62, rfl⟩
abbrev main_call0_v9 : Ref sig .tc := ⟨.hbm, 63, rfl⟩
abbrev main_call0_v10 : Ref sig .tc := ⟨.hbm, 64, rfl⟩
abbrev main_call0_v11 : Ref sig .tc := ⟨.hbm, 65, rfl⟩
abbrev main_call0_cst_3 : Ref sig .tc := ⟨.hbm, 66, rfl⟩
abbrev main_call0_v12 : Ref sig .tc := ⟨.hbm, 67, rfl⟩
abbrev main_call0_cst_4 : Ref sig .tc := ⟨.hbm, 68, rfl⟩
abbrev main_call0_call0_v0 : Ref sig .tc := ⟨.hbm, 69, rfl⟩
abbrev main_call0_call0_v1 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_cst_7 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_call1_cst : Ref sig .tc := ⟨.hbm, 88, rfl⟩
abbrev main_call1_v0 : Ref sig .tc := ⟨.hbm, 89, rfl⟩
abbrev main_v50 : Ref sig .tc := ⟨.hbm, 90, rfl⟩
abbrev main_v51 : Ref sig .tc := ⟨.hbm, 91, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S50000x512 : S_.BroadcastsInDim S50000x512 (![] : Fin 0 → Fin S50000x512.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x512_0_1 : S50000x1.BroadcastsInDim S50000x512 (![0, 1] : Fin 2 → Fin S50000x512.rank)
  transposes_S512x512_S512x512_1_0 : S512x512.Transposes [1, 0] S512x512
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  reducesTo_S50000x512_S512_d0 : S50000x512.ReducesTo [0] S512
  h_S_ : 0 < S_.numel
  bcast_S_S512 : S_.BroadcastsInDim S512 (![] : Fin 0 → Fin S512.rank)
  bcast_S_S1x512 : S_.BroadcastsInDim S1x512 (![] : Fin 0 → Fin S1x512.rank)
  gather_S50000x512_S400000x1_S400000x512_1_0_n_n_0_1_1512_wf : GatherDims.WF S50000x512 S400000x1 S400000x512 [1] [0] [] [0] [] 1 ![1, 512]
  scatter_S50000x512_S400000x1_S400000x512_1_0_0_1_wf : ScatterDims.WF S50000x512 S400000x1 S400000x512 [1] [0] [0] 1
  scatter_S50000_S400000x1_S400000_n_0_0_1_wf : ScatterDims.WF S50000 S400000x1 S400000 [] [0] [0] 1
  dot_S50000x512_S512x512_S50000x512_1_0_0_1_n_n_wf : DotDims.WF S50000x512 S512x512 S50000x512 [1] [0] [0] [1] [] []

variable [Facts₀]

def gather_S50000x512_S400000x1_S400000x512_1_0_n_n_0_1_1512 : GatherDims S50000x512 S400000x1 S400000x512 where
  offsetDims := [1]
  collapsedSliceDims := [0]
  operandBatchingDims := []
  startIndicesBatchingDims := []
  startIndexMap := [0]
  indexVectorDim := 1
  sliceSizes := ![1, 512]
  wf := gather_S50000x512_S400000x1_S400000x512_1_0_n_n_0_1_1512_wf
def scatter_S50000x512_S400000x1_S400000x512_1_0_0_1 : ScatterDims S50000x512 S400000x1 S400000x512 where
  updateWindowDims := [1]
  insertedWindowDims := [0]
  scatterDimsToOperandDims := [0]
  indexVectorDim := 1
  wf := scatter_S50000x512_S400000x1_S400000x512_1_0_0_1_wf
def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def dot_S50000x512_S512x512_S50000x512_1_0_0_1_n_n : DotDims S50000x512 S512x512 S50000x512 where
  lhsContracting := [1]
  rhsContracting := [0]
  lhsNonContracting := [0]
  rhsNonContracting := [1]
  lhsBatch := []
  rhsBatch := []
  wf := dot_S50000x512_S512x512_S50000x512_1_0_0_1_n_n_wf

class Facts : Prop extends Facts₀ where

variable [Facts]
-- ==== Proof.KernelRun.lean ====
/-
  The idealized kernel program's run with its RESULT named.

  The program is two kernel regions among four stretches of host operations. Every weakly fair execution from a memory
  with zero counters terminates without a fault, and in the final state every unscoped buffer holds the last segment
  boundary's contents — the fold of the stretches and of the regions' write-backs from the launch memory. Read at the
  program's result buffer that is the second region's output array after its fifty write-backs; read at an argument's
  buffer it is the launch contents.
-/
import proofs.«132336_j48455821034228_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents and every argument as launched. -/
theorem run_out : θ_run defs (onTc (τ := τ) (main (F := F))) ⟨m, fun _ => 0, ρ⟩ (fun r => ∀ c : Dev nD,
      r.2.mem ((c.tc : Thread nD τ).loc main_v40) = W6 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v40 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c)⟩)

end Cert.KernelIdeal.RunValue

end
-- ==== Proof.Chains.lean ====
/-
  The mathematics shared by the two programs of this certificate, at the ideal values.

  One graph layer: every node's incoming source rows are averaged (a sum over the edges that end at the node, divided
  by their number, at least one); the averaged rows and the node's own row each meet a square weight matrix, a bias
  row is added; every column of the result is normalised by its mean and its variance over all nodes, scaled, shifted,
  rectified, and the node's own row is added back.

  The operations that both programs apply in the same way on the host — the edge average, a column's mean, a column's
  variance and the reciprocal root of it — are named here once, as the compositions of host operations they are. The
  two places where the programs differ are written twice: as the host's operations (the reference), and entry by
  entry (what the kernels' blocks hold).
-/
import proofs.«132336_j48455821034228_1_alg».proof.Proof.Gen.ReferenceIdeal
import Idealize.ShloMosaic.PureOps.Ideal
import Idealize.ShloMosaic.Lib.ValueIdx

noncomputable section

namespace Cert.Sage

open Idealize.ShloMosaic Idealize.ShloMosaic.ValueIdx Cert.ReferenceIdeal Cert.ReferenceIdeal.Facts₀

/-- A node-by-feature matrix, a square weight matrix, a feature vector, a feature row, at the ideal values. -/
abbrev Mat : Type := FVec Ideal S50000x512 .f32
abbrev Sq : Type := FVec Ideal S512x512 .f32
abbrev Feat : Type := FVec Ideal S512 .f32
abbrev Row1 : Type := FVec Ideal S1x512 .f32

/-! ## The host operations both programs share -/

/-- The average of the source rows over the edges that end at each node: the source and destination rows of the edge
    table, a negative source index wrapped once, the source rows gathered, summed into the destination's row, and
    divided by the number of edges that end there, or by one where there is none. -/
def meanAgg (x : Mat) (ei : IVec S2x400000 32) : Mat :=
  let src : IVec S400000 32 := shapeCast S400000 (extractStridedSlice S1x400000 ![0, 0] ei slices_S2x400000_S1x400000_0_0) shapeCasts_S1x400000_S400000
  let dst : IVec S400000 32 := shapeCast S400000 (extractStridedSlice S1x400000 ![1, 0] ei slices_S2x400000_S1x400000_1_0) shapeCasts_S1x400000_S400000
  let neg : IVec S400000 1 := cmpi .slt src (broadcastInDim S400000 ![] bcast_S_S400000 (constantI S_ 32 0#32))
  let wrapped : IVec S400000 32 := select neg (addi src (broadcastInDim S400000 ![] bcast_S_S400000 (constantI S_ 32 50000#32))) src
  let rows : FVec Ideal S400000x512 .f32 :=
    Host.gather gather_S50000x512_S400000x1_S400000x512_1_0_n_n_0_1_1512 x (broadcastInDim S400000x1 ![0] bcast_S400000_S400000x1_0 wrapped)
  let total : Mat :=
    Host.scatterAdd scatter_S50000x512_S400000x1_S400000x512_1_0_0_1
      (broadcastInDim S50000x512 ![] bcast_S_S50000x512 (constant (F := Ideal) S_ .f32 0x00000000#32))
      (broadcastInDim S400000x1 ![0] bcast_S400000_S400000x1_0 dst) rows
  let count : FVec Ideal S50000 .f32 :=
    Host.scatterAdd scatter_S50000_S400000x1_S400000_n_0_0_1
      (broadcastInDim S50000 ![] bcast_S_S50000 (constant (F := Ideal) S_ .f32 0x00000000#32))
      (broadcastInDim S400000x1 ![0] bcast_S400000_S400000x1_0 dst)
      (broadcastInDim S400000 ![] bcast_S_S400000 (constant (F := Ideal) S_ .f32 0x3F800000#32))
  let atLeastOne : FVec Ideal S50000 .f32 :=
    maximumf count (broadcastInDim S50000 ![] bcast_S_S50000 (constant (F := Ideal) S_ .f32 0x3F800000#32))
  Host.divf total (broadcastInDim S50000x512 ![0, 1] bcast_S50000x1_S50000x512_0_1 (broadcastInDim S50000x1 ![0] bcast_S50000_S50000x1_0 atLeastOne))

/-- A column's mean over all nodes: the column sums divided by the number of nodes. -/
def colMean (h : Mat) : Feat :=
  Host.divf (Host.reduceAdd h (constant (F := Ideal) S_ .f32 0x00000000#32) reducesTo_S50000x512_S512_d0 h_S_)
    (broadcastInDim S512 ![] bcast_S_S512 (constant (F := Ideal) S_ .f32 0x47435000#32))

/-- A column's variance over all nodes: the mean of the squared deviations from the column's mean, the count less a
    correction of zero, guarded by the test that this divisor is positive. -/
def colVar (h : Mat) : Feat :=
  let mean1 : Row1 :=
    Host.divf (broadcastInDim S1x512 ![1] bcast_S512_S1x512_1 (Host.reduceAdd h (constant (F := Ideal) S_ .f32 0x00000000#32) reducesTo_S50000x512_S512_d0 h_S_))
      (broadcastInDim S1x512 ![] bcast_S_S1x512 (constant (F := Ideal) S_ .f32 0x47435000#32))
  let dev : Mat := subf h (broadcastInDim S50000x512 ![0, 1] bcast_S1x512_S50000x512_0_1 mean1)
  let n : FVec Ideal S_ .f32 := subf (constant (F := Ideal) S_ .f32 0x47435000#32) (sitofp .f32 (constantI S_ 32 0#32))
  let meanSq : Feat :=
    Host.divf (Host.reduceAdd (mulf dev dev) (constant (F := Ideal) S_ .f32 0x00000000#32) reducesTo_S50000x512_S512_d0 h_S_)
      (broadcastInDim S512 ![] bcast_S_S512 n)
  select (broadcastInDim S512 ![] bcast_S_S512 (cmpf .ogt n (constant (F := Ideal) S_ .f32 0x00000000#32))) meanSq
    (broadcastInDim S512 ![] bcast_S_S512 (id (constant (F := Ideal) S_ .f32 0x7FC00000#32)))

/-- The reciprocal root of a variance and the small constant added to it. -/
def invStd (var : Feat) : Feat :=
  Host.rsqrt (addf var (broadcastInDim S512 ![] bcast_S_S512 (constant (F := Ideal) S_ .f32 0x3727C5AC#32)))

/-! ## The reference's two own stretches, as the host's operations -/

/-- The reference's projections: averaged rows times the transposed left weights, plus the bias row, plus the nodes'
    own rows times the transposed right weights. -/
def hiddenRef (agg x : Mat) (Wl : Sq) (bl : Feat) (Wr : Sq) : Mat :=
  addf
    (addf
      (Host.dotGeneral dot_S50000x512_S512x512_S50000x512_1_0_0_1_n_n none agg (transpose S512x512 [1, 0] Wl transposes_S512x512_S512x512_1_0))
      (broadcastInDim S50000x512 ![0, 1] bcast_S1x512_S50000x512_0_1 (broadcastInDim S1x512 ![1] bcast_S512_S1x512_1 bl)))
    (Host.dotGeneral dot_S50000x512_S512x512_S50000x512_1_0_0_1_n_n none x (transpose S512x512 [1, 0] Wr transposes_S512x512_S512x512_1_0))

/-- The reference's last stretch: deviation from the column mean, times the reciprocal root, times the scale, plus the
    shift, rectified, plus the node's own row. -/
def tailRef (h x : Mat) (mu var gamma beta : Feat) : Mat :=
  let spread (v : Feat) : Mat := broadcastInDim S50000x512 ![0, 1] bcast_S1x512_S50000x512_0_1 (broadcastInDim S1x512 ![1] bcast_S512_S1x512_1 v)
  addf
    (maximumf
      (addf (mulf (mulf (subf h (spread mu)) (spread (invStd var))) (spread gamma)) (spread beta))
      (broadcastInDim S50000x512 ![] bcast_S_S50000x512 (constant (F := Ideal) S_ .f32 0x00000000#32)))
    x

/-- The reference's result as one function of its seven arguments. -/
def outRef (x : Mat) (ei : IVec S2x400000 32) (Wl : Sq) (bl : Feat) (Wr : Sq) (gamma beta : Feat) : Mat :=
  tailRef (hiddenRef (meanAgg x ei) x Wl bl Wr) x (colMean (hiddenRef (meanAgg x ei) x Wl bl Wr)) (colVar (hiddenRef (meanAgg x ei) x Wl bl Wr)) gamma beta

/-! ## What the kernels' blocks hold, entry by entry -/

/-- Entry (p, e) of the first kernel's result: row p of the averaged rows against column e of the first weight matrix,
    plus row p of the nodes' rows against column e of the second, plus entry e of the bias row. -/
def hiddenK (agg x : (⟨2, ![50000, 512]⟩ : Shape).Idx → EReal) (wl wr : (⟨2, ![512, 512]⟩ : Shape).Idx → EReal)
    (b : (⟨2, ![1, 512]⟩ : Shape).Idx → EReal) : (⟨2, ![50000, 512]⟩ : Shape).Idx → EReal :=
  fun i => ((∑ k : Fin 512, agg (ix2 (i 0) k) * wl (ix2 k (i 1))) + ∑ k : Fin 512, x (ix2 (i 0) k) * wr (ix2 k (i 1)))
    + b (ix2 (0 : Fin 1) (i 1))

/-- Entry (p, e) of the second kernel's result: the first result's entry less entry e of the mean row, times entry e of
    the reciprocal-root row, times entry e of the scale row, plus entry e of the shift row, rectified, plus the
    node's own entry. -/
def normK (h x : (⟨2, ![50000, 512]⟩ : Shape).Idx → EReal) (mu is g b : (⟨2, ![1, 512]⟩ : Shape).Idx → EReal) :
    (⟨2, ![50000, 512]⟩ : Shape).Idx → EReal :=
  fun i => max ((((h i - mu (ix2 (0 : Fin 1) (i 1))) * is (ix2 (0 : Fin 1) (i 1))) * g (ix2 (0 : Fin 1) (i 1)))
      + b (ix2 (0 : Fin 1) (i 1))) 0 + x i

end Cert.Sage

end
-- ==== Proof.KernelHost.lean ====
/-
  The idealized kernel program's host stretches, read at the buffers its two kernel regions take.

  Before the first region: the edge average, the two weight matrices transposed (their change of float format is the
  identity at the ideal values) and the bias vector as a row. Between the regions: every column's mean of the first
  region's result, the reciprocal root of its variance plus the small constant, each as a row, and the scale and shift
  vectors as rows; the first region's result and the nodes' rows are not written. Each is stated from an arbitrary
  valuation, as the composition of the stretch's operations.
-/
import proofs.«132336_j48455821034228_1_alg».proof.Proof.Gen.KernelIdeal.Launch
import proofs.«132336_j48455821034228_1_alg».proof.Proof.Chains
import Idealize.ShloMosaic.Lib.StableHlo.Run

noncomputable section

namespace Cert.KernelIdeal.HostValue

open Cert.KernelIdeal Cert.KernelIdeal.Gen
open Idealize.ShloMosaic Idealize.ShloMosaic.TcCoe Idealize.SL.Sem Idealize.ShloMosaic.StableHlo

/-! ## Before the first region -/

attribute [local irreducible] Host.gather Host.scatterAdd Host.divf in
theorem pre_v22 (W : Valuation τ sig (Elt Ideal)) :
    after (hostOps0 (F := Ideal)) W (Proc.devRef .tc main_v22)
      = Cert.Sage.meanAgg (W (Proc.devRef .tc main_arg0)) (W (Proc.devRef .tc main_arg1)) := by
  dsimp only [hostOps0]
  after_results_simp
  rfl

theorem pre_arg0 (W : Valuation τ sig (Elt Ideal)) :
    after (hostOps0 (F := Ideal)) W (Proc.devRef .tc main_arg0) = W (Proc.devRef .tc main_arg0) := by
  dsimp only [hostOps0]
  after_results_simp

theorem pre_arg5 (W : Valuation τ sig (Elt Ideal)) :
    after (hostOps0 (F := Ideal)) W (Proc.devRef .tc main_arg5) = W (Proc.devRef .tc main_arg5) := by
  dsimp only [hostOps0]
  after_results_simp

theorem pre_arg6 (W : Valuation τ sig (Elt Ideal)) :
    after (hostOps0 (F := Ideal)) W (Proc.devRef .tc main_arg6) = W (Proc.devRef .tc main_arg6) := by
  dsimp only [hostOps0]
  after_results_simp

theorem pre_v24 (W : Valuation τ sig (Elt Ideal)) :
    after (hostOps0 (F := Ideal)) W (Proc.devRef .tc main_v24)
      = (truncf .bf16 (transpose S512x512 [1, 0] (W (Proc.devRef .tc main_arg2) : FVec Ideal S512x512 .f32) Facts₀.transposes_S512x512_S512x512_1_0) Facts₀.bitsLt_bf16_f32 : FVec Ideal S512x512 .bf16) := by
  dsimp only [hostOps0]
  after_results_simp

theorem pre_v26 (W : Valuation τ sig (Elt Ideal)) :
    after (hostOps0 (F := Ideal)) W (Proc.devRef .tc main_v26)
      = (truncf .bf16 (transpose S512x512 [1, 0] (W (Proc.devRef .tc main_arg4) : FVec Ideal S512x512 .f32) Facts₀.transposes_S512x512_S512x512_1_0) Facts₀.bitsLt_bf16_f32 : FVec Ideal S512x512 .bf16) := by
  dsimp only [hostOps0]
  after_results_simp

theorem pre_v27 (W : Valuation τ sig (Elt Ideal)) :
    after (hostOps0 (F := Ideal)) W (Proc.devRef .tc main_v27)
      = shapeCast S1x512 (W (Proc.devRef .tc main_arg3)) Facts₀.shapeCasts_S512_S1x512 := by
  dsimp only [hostOps0]
  after_results_simp
  rfl

/-! ## Between the regions -/

/-- The three stretches between the regions, in order. -/
abbrev mid (W : Valuation τ sig (Elt Ideal)) : Valuation τ sig (Elt Ideal) :=
  after (hostOps1_2 (F := Ideal)) (after (hostOps1_1 (F := Ideal)) (after (hostOps1 (F := Ideal)) W))

theorem mid_v28 (W : Valuation τ sig (Elt Ideal)) : mid W (Proc.devRef .tc main_v28) = W (Proc.devRef .tc main_v28) := by
  dsimp only [mid, hostOps1, hostOps1_1, hostOps1_2]
  after_results_simp

theorem mid_arg0 (W : Valuation τ sig (Elt Ideal)) : mid W (Proc.devRef .tc main_arg0) = W (Proc.devRef .tc main_arg0) := by
  dsimp only [mid, hostOps1, hostOps1_1, hostOps1_2]
  after_results_simp

attribute [local irreducible] Host.reduceAdd Host.divf in
theorem mid_v36 (W : Valuation τ sig (Elt Ideal)) :
    mid W (Proc.devRef .tc main_v36)
      = shapeCast S1x512 (Cert.Sage.colMean (W (Proc.devRef .tc main_v28))) Facts₀.shapeCasts_S512_S1x512 := by
  dsimp only [mid, hostOps1, hostOps1_1, hostOps1_2]
  after_results_simp
  rfl

attribute [local irreducible] Host.reduceAdd Host.divf Host.rsqrt in
theorem mid_v37 (W : Valuation τ sig (Elt Ideal)) :
    mid W (Proc.devRef .tc main_v37)
      = shapeCast S1x512 (Cert.Sage.invStd (Cert.Sage.colVar (W (Proc.devRef .tc main_v28)))) Facts₀.shapeCasts_S512_S1x512 := by
  dsimp only [mid, hostOps1, hostOps1_1, hostOps1_2]
  after_results_simp
  rfl

theorem mid_v38 (W : Valuation τ sig (Elt Ideal)) :
    mid W (Proc.devRef .tc main_v38) = shapeCast S1x512 (W (Proc.devRef .tc main_arg5)) Facts₀.shapeCasts_S512_S1x512 := by
  dsimp only [mid, hostOps1, hostOps1_1, hostOps1_2]
  after_results_simp
  rfl

theorem mid_v39 (W : Valuation τ sig (Elt Ideal)) :
    mid W (Proc.devRef .tc main_v39) = shapeCast S1x512 (W (Proc.devRef .tc main_arg6)) Facts₀.shapeCasts_S512_S1x512 := by
  dsimp only [mid, hostOps1, hostOps1_1, hostOps1_2]
  after_results_simp
  rfl

end Cert.KernelIdeal.HostValue

end
-- ==== Proof.LibPlainMatmul.lean ====
/-
  A plain matrix product read at an index, at the ideal values.

  For the dimension numbers of an ordinary product — an [A, K] matrix times a [K, B] matrix, contracting the left
  operand's columns with the right operand's rows, no batch axis — a `tpu.matmul` into the zero accumulator is, at
  (p, e), the sum over k of L(p, k) · R(k, e): a sum indexed by `Fin K`, with both operands read at indices written by
  coordinates. The contraction index of the library's general statement is re-indexed through its one coordinate, and
  the operand indices it names are computed axis by axis.
-/
import Idealize.ShloMosaic.PureOps.Ideal.Laws
import Idealize.ShloMosaic.Lib.ValueIdx

noncomputable section

namespace Idealize.ShloMosaic.ValueIdx

open Idealize.ShloMosaic

/-- The left operand's index at result index (p, e) and contraction coordinate k is (p, k). -/
theorem plain_lhsIdx (A K B : Nat) (p : Fin A) (e : Fin B) (k : Fin K) :
    (DotDims.plain A K B).lhsIdx (ix2 p e) ((contrEquiv1 (DotDims.plain A K B) K rfl rfl).symm k) = ix2 p k :=
  funext fun a => Fin.ext (by
    match a with
    | ⟨0, _⟩ => rfl
    | ⟨1, _⟩ =>
      exact ((DotDims.plain A K B).lhsIdx_val_of_single (cl := 1) rfl _ _).trans
        (contrEquiv1_symm_val (DotDims.plain A K B) K rfl rfl k))

/-- The right operand's index there is (k, e). -/
theorem plain_rhsIdx (A K B : Nat) (p : Fin A) (e : Fin B) (k : Fin K) :
    (DotDims.plain A K B).rhsIdx (ix2 p e) ((contrEquiv1 (DotDims.plain A K B) K rfl rfl).symm k) = ix2 k e :=
  funext fun a => Fin.ext (by
    match a with
    | ⟨0, _⟩ =>
      exact ((DotDims.plain A K B).rhsIdx_val_of_single (cr := 0) rfl _ _).trans
        (contrEquiv1_symm_val (DotDims.plain A K B) K rfl rfl k)
    | ⟨1, _⟩ => rfl)

/-- A plain [A, K] × [K, B] `tpu.matmul` into the zero accumulator, read at (p, e): Σ_k L(p, k) · R(k, e). -/
theorem matmul_plain_zero_apply (A K B : Nat) {φ₁ φ₂ : FTy} (prec : Option ContractPrecision)
    (lhs : FVec Ideal ⟨2, ![A, K]⟩ φ₁) (rhs : FVec Ideal ⟨2, ![K, B]⟩ φ₂) (p : Fin A) (e : Fin B) :
    FloatOps.matmul (DotDims.plain A K B) prec lhs rhs (constant ⟨2, ![A, B]⟩ .f32 0x00000000#32) (ix2 p e)
      = ∑ k : Fin K, lhs (ix2 p k) * rhs (ix2 k e) := by
  rw [Ideal.matmul_constant_zero_apply, ← Equiv.sum_comp (contrEquiv1 (DotDims.plain A K B) K rfl rfl).symm]
  refine Finset.sum_congr rfl fun k _ => ?_
  rw [plain_lhsIdx, plain_rhsIdx]

end Idealize.ShloMosaic.ValueIdx

end
-- ==== Proof.LibRowBroadcast.lean ====
/-
  A ROW `[1, b]` spread over `a` rows: the broadcast to `[a, b]` reads, at `(p, c)`, the row's entry of column `c`
  — every row of the result is the one row of the operand. The unit coordinate `u : Fin 1` is whatever the caller
  writes: there is only one.
-/
import Idealize.ShloMosaic.Lib.ValueLayout

namespace Cert.LibRowBroadcast

open Idealize.ShloMosaic Idealize.ShloMosaic.ValueIdx

variable {α : Type}

/-- A row `[1, b]` broadcast to `[a, b]` reads, at `(p, c)`, the row's entry of column `c`. -/
theorem broadcastTo_1b_ab_apply {a b : ℕ} (v : (⟨2, ![1, b]⟩ : Shape).Idx → α) (h : (⟨2, ![1, b]⟩ : Shape).Broadcasts ⟨2, ![a, b]⟩)
    (p : Fin a) (c : Fin b) (u : Fin 1) : broadcastTo ⟨2, ![a, b]⟩ v h (ix2 p c) = v (ix2 u c) := by
  refine broadcastTo_apply v h (ix2 p c) (ix2 u c) fun ax => ?_
  match ax with
  | ⟨0, _⟩ =>
    show u.val = if (1 : ℕ) = 1 then 0 else p.val
    rw [if_pos rfl]; omega
  | ⟨1, _⟩ =>
    show c.val = if b = 1 then 0 else c.val
    split
    · have := c.isLt; omega
    · rfl

end Cert.LibRowBroadcast
-- ==== Proof.Region0.lean ====
/-
  What the first kernel region leaves in its output array, at the ideal values.

  The region walks fifty grid points. At point t it holds rows 1000·t … 1000·t + 999 of the averaged rows and of the
  nodes' own rows, the two weight matrices whole and the bias row, and writes back one block of 1000 rows: the averaged
  rows' block times the first weight matrix, plus the own rows' block times the second, plus the bias row spread over
  the block's rows. Read entry by entry, block t is rows 1000·t … 1000·t + 999 of ONE function of the five arrays the
  region finds; the fifty blocks tile the output array, so after the last write-back the array is that function.
-/
import proofs.«132336_j48455821034228_1_alg».proof.Proof.Gen.KernelIdeal.Frame
import proofs.«132336_j48455821034228_1_alg».proof.Proof.Chains
import proofs.«132336_j48455821034228_1_alg».proof.Proof.LibPlainMatmul
import proofs.«132336_j48455821034228_1_alg».proof.Proof.LibRowBroadcast
import Idealize.ShloMosaic.Lib.Pipeline.Value
import Idealize.ShloMosaic.Lib.ValueIdx
import Idealize.ShloMosaic.Lib.ValueLayout

set_option maxRecDepth 16384

noncomputable section

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat)

/-! ## One entry of the block a grid point computes -/

/-- The product's dimension numbers are those of an ordinary [1000, 512] × [512, 512] product. -/
theorem dims_plain : dot_S1000x512_S512x512_S1000x512_1_0_0_1_n_n = DotDims.plain 1000 512 512 := rfl

/-- Entry (p, e) of the block the body stores, from the five blocks it loaded: row p of the first block against
    column e of the first weight matrix, plus row p of the second block against column e of the second weight matrix,
    plus entry e of the bias row. Rounding the left operands to the narrower format changes nothing at the ideal
    values, and the casts are to the shapes the operands already have. -/
theorem pay_apply (x0 x1 : Vec Ideal S1000x512 .f32) (x2 x3 : Vec Ideal S512x512 .bf16) (x4 : Vec Ideal S1x512 .f32)
    (p : Fin 1000) (e : Fin 512) :
    Gen.k0_pay1 (F := Ideal) x0 x1 x2 x3 x4 (ix2 p e)
      = ((∑ k : Fin 512, x0 (ix2 p k) * x2 (ix2 k e)) + ∑ k : Fin 512, x1 (ix2 p k) * x3 (ix2 k e))
        + x4 (ix2 (0 : Fin 1) e) := by
  unfold Gen.k0_pay1
  simp only [shapeCast_self, addf_apply]
  refine congrArg₂ (· + ·) (congrArg₂ (· + ·) ?_ ?_) ?_
  · exact matmul_plain_zero_apply 1000 512 512 (φ₁ := .bf16) (φ₂ := .bf16) none (truncf .bf16 x0 bitsLt_bf16_f32) x2 p e
  · exact matmul_plain_zero_apply 1000 512 512 (φ₁ := .bf16) (φ₂ := .bf16) none (truncf .bf16 x1 bitsLt_bf16_f32) x3 p e
  · exact Cert.LibRowBroadcast.broadcastTo_1b_ab_apply x4 broadcasts_S1x512_S1000x512 p e 0

/-! ## The blocks a grid point holds, read off the arrays -/

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps, decided once over the fifty grid points: the two row windows and the output window sit at
    block (t, 0); the two weight matrices and the bias row stay at block (0, 0). -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- A grid point is one of fifty. -/
theorem point_lt (t : Fin cfg0.N) : t.val < 50 := Nat.lt_of_lt_of_eq t.isLt Gen.N_0

/-- Row p of block t is row 1000·t + p of the array. -/
def row (t : Fin cfg0.N) (p : Fin 1000) : Fin 50000 :=
  ⟨t.val * 1000 + p.val, by have := point_lt t; have := p.isLt; omega⟩

/-- The averaged rows' block at point t, entry (p, k): the array's entry (1000·t + p, k). -/
theorem agg_block (c : Dev nD) (t : Fin cfg0.N) (p : Fin 1000) (k : Fin 512) :
    (Gen.iblk0 (F := Ideal) V c 0 t : Vec Ideal S1000x512 .f32) (ix2 p k)
      = (V c main_v22 : S50000x512.Idx → EReal) (ix2 (row t p) k) := by
  obtain ⟨e0, e1, -⟩ := block_index t
  unfold Gen.iblk0
  rw [View.read_apply]
  show V c main_v22 _ = V c main_v22 _
  refine congrArg (V c main_v22) ?_
  funext a
  apply Fin.ext
  match a with
  | ⟨0, _⟩ => show win0_0.index t (0 : Fin 2) * 1000 + 1 * p.val = t.val * 1000 + p.val; rw [e0]; omega
  | ⟨1, _⟩ => show win0_0.index t (1 : Fin 2) * 512 + 1 * k.val = k.val; rw [e1]; omega

/-- The nodes' own rows' block at point t, entry (p, k): the array's entry (1000·t + p, k). -/
theorem own_block (c : Dev nD) (t : Fin cfg0.N) (p : Fin 1000) (k : Fin 512) :
    (Gen.iblk0 (F := Ideal) V c 1 t : Vec Ideal S1000x512 .f32) (ix2 p k)
      = (V c main_arg0 : S50000x512.Idx → EReal) (ix2 (row t p) k) := by
  obtain ⟨-, -, e0, e1, -⟩ := block_index t
  unfold Gen.iblk0
  rw [View.read_apply]
  show V c main_arg0 _ = V c main_arg0 _
  refine congrArg (V c main_arg0) ?_
  funext a
  apply Fin.ext
  match a with
  | ⟨0, _⟩ => show win0_1.index t (0 : Fin 2) * 1000 + 1 * p.val = t.val * 1000 + p.val; rw [e0]; omega
  | ⟨1, _⟩ => show win0_1.index t (1 : Fin 2) * 512 + 1 * k.val = k.val; rw [e1]; omega

/-- The first weight matrix is held whole at every point. -/
theorem left_weights_block (c : Dev nD) (t : Fin cfg0.N) (k e : Fin 512) :
    (Gen.iblk0 (F := Ideal) V c 2 t : Vec Ideal S512x512 .bf16) (ix2 k e)
      = (V c main_v24 : S512x512.Idx → EReal) (ix2 k e) := by
  obtain ⟨-, -, -, -, e0, e1, -⟩ := block_index t
  unfold Gen.iblk0
  rw [View.read_apply]
  show V c main_v24 _ = V c main_v24 _
  refine congrArg (V c main_v24) ?_
  funext a
  apply Fin.ext
  match a with
  | ⟨0, _⟩ => show win0_2.index t (0 : Fin 2) * 512 + 1 * k.val = k.val; rw [e0]; omega
  | ⟨1, _⟩ => show win0_2.index t (1 : Fin 2) * 512 + 1 * e.val = e.val; rw [e1]; omega

/-- So is the second. -/
theorem right_weights_block (c : Dev nD) (t : Fin cfg0.N) (k e : Fin 512) :
    (Gen.iblk0 (F := Ideal) V c 3 t : Vec Ideal S512x512 .bf16) (ix2 k e)
      = (V c main_v26 : S512x512.Idx → EReal) (ix2 k e) := by
  obtain ⟨-, -, -, -, -, -, e0, e1, -⟩ := block_index t
  unfold Gen.iblk0
  rw [View.read_apply]
  show V c main_v26 _ = V c main_v26 _
  refine congrArg (V c main_v26) ?_
  funext a
  apply Fin.ext
  match a with
  | ⟨0, _⟩ => show win0_3.index t (0 : Fin 2) * 512 + 1 * k.val = k.val; rw [e0]; omega
  | ⟨1, _⟩ => show win0_3.index t (1 : Fin 2) * 512 + 1 * e.val = e.val; rw [e1]; omega

/-- And the bias row. -/
theorem bias_block (c : Dev nD) (t : Fin cfg0.N) (u : Fin 1) (e : Fin 512) :
    (Gen.iblk0 (F := Ideal) V c 4 t : Vec Ideal S1x512 .f32) (ix2 u e)
      = (V c main_v27 : S1x512.Idx → EReal) (ix2 u e) := by
  obtain ⟨-, -, -, -, -, -, -, -, e0, e1, -⟩ := block_index t
  unfold Gen.iblk0
  rw [View.read_apply]
  show V c main_v27 _ = V c main_v27 _
  refine congrArg (V c main_v27) ?_
  funext a
  apply Fin.ext
  match a with
  | ⟨0, _⟩ => show win0_4.index t (0 : Fin 2) * 1 + 1 * u.val = u.val; rw [e0]; omega
  | ⟨1, _⟩ => show win0_4.index t (1 : Fin 2) * 512 + 1 * e.val = e.val; rw [e1]; omega

/-- Entry (p, e) of the output's block at point t sits at (1000·t + p, e) of the output array. -/
theorem out_block_emb (t : Fin cfg0.N) (p : Fin 1000) (e : Fin 512) :
    ((cfg0.win 5).blk t).view.emb (ix2 p e) = (ix2 (row t p) e : S50000x512.Idx) := by
  obtain ⟨-, -, -, -, -, -, -, -, -, -, e0, e1⟩ := block_index t
  funext a
  apply Fin.ext
  match a with
  | ⟨0, _⟩ => show win0_5.index t (0 : Fin 2) * 1000 + 1 * p.val = t.val * 1000 + p.val; rw [e0]; omega
  | ⟨1, _⟩ => show win0_5.index t (1 : Fin 2) * 512 + 1 * e.val = e.val; rw [e1]; omega

/-! ## What a grid point writes back -/

/-- The whole-array function at (r, e), its index written by coordinates. -/
theorem hidden_at (agg x : (⟨2, ![50000, 512]⟩ : Shape).Idx → EReal) (wl wr : (⟨2, ![512, 512]⟩ : Shape).Idx → EReal)
    (b : (⟨2, ![1, 512]⟩ : Shape).Idx → EReal) (r : Fin 50000) (e : Fin 512) :
    Cert.Sage.hiddenK agg x wl wr b (ix2 r e)
      = ((∑ k : Fin 512, agg (ix2 r k) * wl (ix2 k e)) + ∑ k : Fin 512, x (ix2 r k) * wr (ix2 k e))
        + b (ix2 (0 : Fin 1) e) := rfl

/-- What point t writes back is block t of the one whole-array function. -/
theorem flushed_eq (c : Dev nD) (t : Fin cfg0.N) :
    (Gen.dat0 (F := Ideal) V c).flushed 5 t
      = ((cfg0.win 5).blk t).view.read (Elt Ideal)
          (Cert.Sage.hiddenK (V c main_v22) (V c main_arg0) (V c main_v24) (V c main_v26) (V c main_v27)) := by
  show (cfg0.win 5).cut (grid0.coords t) ((Gen.dat0 V c).after 5 t) = _
  rw [Gen.after0_5]
  unfold Gen.out0_5
  rw [View.canon_unit_zero zero_offsets]
  simp only [View.ld_unit_zero (S := S1000x512) zero_offsets, View.ld_unit_zero (S := S512x512) zero_offsets,
    View.ld_unit_zero (S := S1x512) zero_offsets]
  refine funext fun (j : S1000x512.Idx) => ?_
  obtain ⟨p, e, rfl⟩ : ∃ (p : Fin 1000) (e : Fin 512), j = ix2 p e := ⟨j 0, j 1, eq_ix2 j⟩
  show Gen.k0_pay1 (Gen.iblk0 V c 0 t) (Gen.iblk0 V c 1 t) (Gen.iblk0 V c 2 t) (Gen.iblk0 V c 3 t) (Gen.iblk0 V c 4 t) (ix2 p e)
    = Cert.Sage.hiddenK (V c main_v22) (V c main_arg0) (V c main_v24) (V c main_v26) (V c main_v27)
        (((cfg0.win 5).blk t).view.emb (ix2 p e))
  rw [out_block_emb t p e]
  refine (pay_apply (Gen.iblk0 V c 0 t) (Gen.iblk0 V c 1 t) (Gen.iblk0 V c 2 t) (Gen.iblk0 V c 3 t) (Gen.iblk0 V c 4 t) p e).trans ?_
  refine Eq.trans ?_ (hidden_at (V c main_v22) (V c main_arg0) (V c main_v24) (V c main_v26) (V c main_v27) (row t p) e).symm
  refine congrArg₂ (· + ·) (congrArg₂ (· + ·) (Finset.sum_congr rfl fun k _ => ?_) (Finset.sum_congr rfl fun k _ => ?_)) ?_
  · rw [agg_block, left_weights_block]
  · rw [own_block, right_weights_block]
  · exact bias_block V c t 0 e

/-! ## The fifty blocks tile the output array -/

/-- An index of the output array is in point t's block iff each coordinate is in the block's range on its axis. -/
theorem mem_out_block (t : Fin cfg0.N) (i : S50000x512.Idx) :
    i ∈ ((cfg0.win 5).blk t).view.set
      ↔ ∀ a : Fin 2, win0_5.index t a * S1000x512.size a ≤ (i a).val
          ∧ (i a).val < win0_5.index t a * S1000x512.size a + S1000x512.size a := by
  show i ∈ ((View.whole main_v28).slice (win0_5.rect t)).set ↔ _
  rw [View.set_slice_whole, Rect.mem_set_unit]
  exact Iff.rfl

/-- Row r of the output array lies in the block of point r / 1000, and every point writes its block back. -/
theorem covered (i : S50000x512.Idx) :
    ∃ t : Fin cfg0.N, (cfg0.win 5).flush t = true ∧ i ∈ ((cfg0.win 5).blk t).view.set := by
  have hi0 : (i 0).val < 50000 := (i 0).isLt
  have hi1 : (i 1).val < 512 := (i 1).isLt
  have ht : (i 0).val / 1000 < cfg0.N := Nat.lt_of_lt_of_eq (by omega : (i 0).val / 1000 < 50) Gen.N_0.symm
  obtain ⟨-, -, -, -, -, -, -, -, -, -, e0, e1⟩ := block_index ⟨(i 0).val / 1000, ht⟩
  have e0' : win0_5.index ⟨(i 0).val / 1000, ht⟩ (0 : Fin 2) = (i 0).val / 1000 := e0
  refine ⟨⟨(i 0).val / 1000, ht⟩, Gen.flush0_5 _, ?_⟩
  rw [mem_out_block]
  intro a
  match a with
  | ⟨0, _⟩ =>
    show win0_5.index ⟨(i 0).val / 1000, ht⟩ (0 : Fin 2) * 1000 ≤ (i 0).val
      ∧ (i 0).val < win0_5.index ⟨(i 0).val / 1000, ht⟩ (0 : Fin 2) * 1000 + 1000
    rw [e0']; omega
  | ⟨1, _⟩ =>
    show win0_5.index ⟨(i 0).val / 1000, ht⟩ (1 : Fin 2) * 512 ≤ (i 1).val
      ∧ (i 1).val < win0_5.index ⟨(i 0).val / 1000, ht⟩ (1 : Fin 2) * 512 + 512
    rw [e1]; omega

/-! ## The array after the region -/

/-- After the fifty write-backs the region's output array holds, entry by entry, the averaged rows against the first
    weight matrix, plus the nodes' own rows against the second, plus the bias row — of the arrays the region found. -/
theorem final0 (c : Dev nD) :
    (Gen.dat0 (F := Ideal) V c).arrAt 5 cfg0.N
      = Cert.Sage.hiddenK (V c main_v22) (V c main_arg0) (V c main_v24) (V c main_v26) (V c main_v27) :=
  (Gen.dat0 (F := Ideal) V c).arrAt_eq_of_cover 5 _ (fun t _ => flushed_eq V c t) covered

end Cert.KernelIdeal.Region0

end
-- ==== Proof.Region1.lean ====
/-
  What the second kernel region of the idealized program leaves in its output array, as one function of the arrays
  the region finds.

  The region walks fifty blocks of a thousand rows. At each block it reads the block of the projected rows and the block
  of the nodes' own rows, and, whole, the four rows of column statistics and parameters — the column means, the
  reciprocal roots, the scales, the shifts; it stores, entry by entry, the deviation from the column's mean times the
  reciprocal root times the scale plus the shift, rectified, plus the node's own entry. The fifty blocks tile the array,
  so the array ends holding that function of the whole arrays at every index.
-/
import proofs.«132336_j48455821034228_1_alg».proof.Proof.Gen.KernelIdeal.Frame
import proofs.«132336_j48455821034228_1_alg».proof.Proof.Chains
import proofs.«132336_j48455821034228_1_alg».proof.Proof.LibRowBroadcast
import Idealize.ShloMosaic.Lib.Pipeline.Value
import Idealize.ShloMosaic.Lib.ValueIdx
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat)

/-! ## The body's arithmetic at an entry -/

/-- Entry (p, e) of what the body stores, from the blocks it loaded: the projected block's entry less entry e of the
    mean row, times entry e of the reciprocal-root row, times entry e of the scale row, plus entry e of the shift row,
    rectified, plus the own-row block's entry. -/
theorem stored_apply (x0 : Vec Ideal S1000x512 .f32) (x2 x3 x4 x5 : Vec Ideal S1x512 .f32) (x1 : Vec Ideal S1000x512 .f32)
    (p : Fin 1000) (e : Fin 512) :
    Gen.k1_pay1 x0 x2 x3 x4 x5 x1 (ix2 p e)
      = max ((((x0 (ix2 p e) - x2 (ix2 (0 : Fin 1) e)) * x3 (ix2 (0 : Fin 1) e)) * x4 (ix2 (0 : Fin 1) e))
          + x5 (ix2 (0 : Fin 1) e)) 0 + x1 (ix2 p e) := by
  unfold Gen.k1_pay1
  simp only [shapeCast_self, addf_apply, maximumf_apply, mulf_apply, subf_apply, broadcast_apply,
    Cert.LibRowBroadcast.broadcastTo_1b_ab_apply _ broadcasts_S1x512_S1000x512 p e (0 : Fin 1)]
  rw [show Scalar.ofBits (F := Idealize.ShloMosaic.Ideal) .f32 0x00000000#32 = (0 : EReal) from Ideal.ofBits_zero_f32]

/-- The same entry against whole arrays: when the loaded blocks' entries are the arrays' entries at row r and column e,
    and the loaded rows' entries are the rows' entries at column e, what the body stores at (p, e) is the
    normalised, rectified entry (r, e) with the own entry added. -/
theorem stored_eq_norm (h x : (⟨2, ![50000, 512]⟩ : Shape).Idx → EReal) (mu is g b : (⟨2, ![1, 512]⟩ : Shape).Idx → EReal)
    (x0 : Vec Ideal S1000x512 .f32) (x2 x3 x4 x5 : Vec Ideal S1x512 .f32) (x1 : Vec Ideal S1000x512 .f32)
    (p : Fin 1000) (e : Fin 512) (r : Fin 50000)
    (h0 : x0 (ix2 p e) = h (ix2 r e)) (h1 : x1 (ix2 p e) = x (ix2 r e))
    (h2 : x2 (ix2 (0 : Fin 1) e) = mu (ix2 (0 : Fin 1) e)) (h3 : x3 (ix2 (0 : Fin 1) e) = is (ix2 (0 : Fin 1) e))
    (h4 : x4 (ix2 (0 : Fin 1) e) = g (ix2 (0 : Fin 1) e)) (h5 : x5 (ix2 (0 : Fin 1) e) = b (ix2 (0 : Fin 1) e)) :
    Gen.k1_pay1 x0 x2 x3 x4 x5 x1 (ix2 p e) = Cert.Sage.normK h x mu is g b (ix2 r e) := by
  rw [stored_apply, h0, h1, h2, h3, h4, h5]
  rfl

/-! ## The blocks, read off the arrays -/

variable (V : (c : Dev nD) → (b : Ref sig .tc) → Buf (Elt Ideal) ((c : Thread nD τ).loc b))

theorem zero_offsets : (![0, 0] : Fin 2 → Nat) = fun _ => 0 := funext fun a => by fin_cases a <;> rfl

/-- The block indices over the grid: the three windows of a thousand rows sit at block (t, 0) at point t, the four
    row windows at block (0, 0) at every point. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row p of the block of point t is row 1000 t + p of the array. -/
def rowAt (t : Fin cfg1.N) (p : Fin 1000) : Fin 50000 :=
  ⟨t.val * 1000 + p.val, by have ht : t.val < 50 := Nat.lt_of_lt_of_eq t.isLt Gen.N_1; have hp := p.isLt; omega⟩

/-- The projected rows' block at point t, at (p, e), is the array's entry (1000 t + p, e). -/
theorem block0_apply (c : Dev nD) (t : Fin cfg1.N) (p : Fin 1000) (e : Fin 512) :
    (Gen.iblk1 V c 0 t : Vec Ideal S1000x512 .f32) (ix2 p e) = (V c main_v28 : S50000x512.Idx → EReal) (ix2 (rowAt t p) e) := by
  obtain ⟨e0, e1, -⟩ := block_indices t
  show V c main_v28 (((cfg1.win 0).blk t).view.emb (ix2 p e)) = V c main_v28 (ix2 (rowAt t p) e)
  refine congrArg (V c main_v28) (funext fun a => Fin.ext ?_)
  match a with
  | ⟨0, _⟩ => show win1_0.index t (0 : Fin 2) * 1000 + 1 * p.val = t.val * 1000 + p.val; rw [e0]; omega
  | ⟨1, _⟩ => show win1_0.index t (1 : Fin 2) * 512 + 1 * e.val = e.val; rw [e1]; omega

/-- The nodes' own rows' block at point t, at (p, e), is the array's entry (1000 t + p, e). -/
theorem block1_apply (c : Dev nD) (t : Fin cfg1.N) (p : Fin 1000) (e : Fin 512) :
    (Gen.iblk1 V c 1 t : Vec Ideal S1000x512 .f32) (ix2 p e) = (V c main_arg0 : S50000x512.Idx → EReal) (ix2 (rowAt t p) e) := by
  obtain ⟨-, -, e0, e1, -⟩ := block_indices t
  show V c main_arg0 (((cfg1.win 1).blk t).view.emb (ix2 p e)) = V c main_arg0 (ix2 (rowAt t p) e)
  refine congrArg (V c main_arg0) (funext fun a => Fin.ext ?_)
  match a with
  | ⟨0, _⟩ => show win1_1.index t (0 : Fin 2) * 1000 + 1 * p.val = t.val * 1000 + p.val; rw [e0]; omega
  | ⟨1, _⟩ => show win1_1.index t (1 : Fin 2) * 512 + 1 * e.val = e.val; rw [e1]; omega

/-- The mean row's block at every point is the row itself. -/
theorem block2_apply (c : Dev nD) (t : Fin cfg1.N) (e : Fin 512) :
    (Gen.iblk1 V c 2 t : Vec Ideal S1x512 .f32) (ix2 (0 : Fin 1) e) = (V c main_v36 : S1x512.Idx → EReal) (ix2 (0 : Fin 1) e) := by
  obtain ⟨-, -, -, -, e20, e21, e30, e31, e40, e41, e50, e51, -⟩ := block_indices t
  show V c main_v36 (((cfg1.win 2).blk t).view.emb (ix2 (0 : Fin 1) e)) = V c main_v36 (ix2 (0 : Fin 1) e)
  refine congrArg (V c main_v36) (funext fun a => Fin.ext ?_)
  match a with
  | ⟨0, _⟩ => show win1_2.index t (0 : Fin 2) * 1 + 1 * 0 = 0; rw [e20]
  | ⟨1, _⟩ => show win1_2.index t (1 : Fin 2) * 512 + 1 * e.val = e.val; rw [e21]; omega

/-- The reciprocal-root row's block at every point is the row itself. -/
theorem block3_apply (c : Dev nD) (t : Fin cfg1.N) (e : Fin 512) :
    (Gen.iblk1 V c 3 t : Vec Ideal S1x512 .f32) (ix2 (0 : Fin 1) e) = (V c main_v37 : S1x512.Idx → EReal) (ix2 (0 : Fin 1) e) := by
  obtain ⟨-, -, -, -, e20, e21, e30, e31, e40, e41, e50, e51, -⟩ := block_indices t
  show V c main_v37 (((cfg1.win 3).blk t).view.emb (ix2 (0 : Fin 1) e)) = V c main_v37 (ix2 (0 : Fin 1) e)
  refine congrArg (V c main_v37) (funext fun a => Fin.ext ?_)
  match a with
  | ⟨0, _⟩ => show win1_3.index t (0 : Fin 2) * 1 + 1 * 0 = 0; rw [e30]
  | ⟨1, _⟩ => show win1_3.index t (1 : Fin 2) * 512 + 1 * e.val = e.val; rw [e31]; omega

/-- The scale row's block at every point is the row itself. -/
theorem block4_apply (c : Dev nD) (t : Fin cfg1.N) (e : Fin 512) :
    (Gen.iblk1 V c 4 t : Vec Ideal S1x512 .f32) (ix2 (0 : Fin 1) e) = (V c main_v38 : S1x512.Idx → EReal) (ix2 (0 : Fin 1) e) := by
  obtain ⟨-, -, -, -, e20, e21, e30, e31, e40, e41, e50, e51, -⟩ := block_indices t
  show V c main_v38 (((cfg1.win 4).blk t).view.emb (ix2 (0 : Fin 1) e)) = V c main_v38 (ix2 (0 : Fin 1) e)
  refine congrArg (V c main_v38) (funext fun a => Fin.ext ?_)
  match a with
  | ⟨0, _⟩ => show win1_4.index t (0 : Fin 2) * 1 + 1 * 0 = 0; rw [e40]
  | ⟨1, _⟩ => show win1_4.index t (1 : Fin 2) * 512 + 1 * e.val = e.val; rw [e41]; omega

/-- The shift row's block at every point is the row itself. -/
theorem block5_apply (c : Dev nD) (t : Fin cfg1.N) (e : Fin 512) :
    (Gen.iblk1 V c 5 t : Vec Ideal S1x512 .f32) (ix2 (0 : Fin 1) e) = (V c main_v39 : S1x512.Idx → EReal) (ix2 (0 : Fin 1) e) := by
  obtain ⟨-, -, -, -, e20, e21, e30, e31, e40, e41, e50, e51, -⟩ := block_indices t
  show V c main_v39 (((cfg1.win 5).blk t).view.emb (ix2 (0 : Fin 1) e)) = V c main_v39 (ix2 (0 : Fin 1) e)
  refine congrArg (V c main_v39) (funext fun a => Fin.ext ?_)
  match a with
  | ⟨0, _⟩ => show win1_5.index t (0 : Fin 2) * 1 + 1 * 0 = 0; rw [e50]
  | ⟨1, _⟩ => show win1_5.index t (1 : Fin 2) * 512 + 1 * e.val = e.val; rw [e51]; omega

/-- Entry (p, e) of the output's block of point t sits in the array at (1000 t + p, e). -/
theorem out_block_emb (t : Fin cfg1.N) (p : Fin 1000) (e : Fin 512) :
    ((cfg1.win 6).blk t).view.emb (ix2 p e) = (ix2 (rowAt t p) e : S50000x512.Idx) := by
  obtain ⟨-, -, -, -, -, -, -, -, -, -, -, -, e0, e1⟩ := block_indices t
  refine funext fun a => Fin.ext ?_
  match a with
  | ⟨0, _⟩ => show win1_6.index t (0 : Fin 2) * 1000 + 1 * p.val = t.val * 1000 + p.val; rw [e0]; omega
  | ⟨1, _⟩ => show win1_6.index t (1 : Fin 2) * 512 + 1 * e.val = e.val; rw [e1]; omega

/-! ## What each point writes back, and the array after the fifty points -/

/-- The region's result as one function of the arrays it finds. -/
abbrev normOf (c : Dev nD) : S50000x512.Idx → EReal :=
  Cert.Sage.normK (V c main_v28) (V c main_arg0) (V c main_v36) (V c main_v37) (V c main_v38) (V c main_v39)

/-- What point t writes back is block t of that function. -/
theorem flushed_eq (c : Dev nD) (t : Fin cfg1.N) :
    (Gen.dat1 (F := Ideal) V c).flushed 6 t = ((cfg1.win 6).blk t).view.read (Elt Ideal) (normOf V c) := by
  show (cfg1.win 6).cut (grid1.coords t) ((Gen.dat1 (F := Ideal) V c).after 6 t) = _
  rw [Gen.after1_6]
  unfold Gen.out1_6
  rw [View.canon_unit_zero zero_offsets]
  simp only [View.ld_unit_zero (S := S1000x512) zero_offsets, View.ld_unit_zero (S := S1x512) zero_offsets]
  funext j
  obtain ⟨p, e, rfl⟩ : ∃ (p : Fin 1000) (e : Fin 512), j = ix2 p e := ⟨j 0, j 1, eq_ix2 j⟩
  show Gen.k1_pay1 (Gen.iblk1 V c 0 t) (Gen.iblk1 V c 2 t) (Gen.iblk1 V c 3 t) (Gen.iblk1 V c 4 t) (Gen.iblk1 V c 5 t) (Gen.iblk1 V c 1 t) (ix2 p e)
    = normOf V c (((cfg1.win 6).blk t).view.emb (ix2 p e))
  rw [out_block_emb t p e]
  exact stored_eq_norm _ _ _ _ _ _ _ _ _ _ _ _ p e (rowAt t p) (block0_apply V c t p e) (block1_apply V c t p e)
    (block2_apply V c t e) (block3_apply V c t e) (block4_apply V c t e) (block5_apply V c t e)

/-- An index of the array is in point t's block iff each coordinate is in the block's range on its axis. -/
theorem mem_block (t : Fin cfg1.N) (i : S50000x512.Idx) :
    i ∈ ((cfg1.win 6).blk t).view.set ↔ ∀ a : Fin 2, win1_6.index t a * S1000x512.size a ≤ (i a).val ∧ (i a).val < win1_6.index t a * S1000x512.size a + S1000x512.size a := by
  show i ∈ ((View.whole main_v40).slice (win1_6.rect t)).set ↔ _
  rw [View.set_slice_whole, Rect.mem_set_unit]
  exact Iff.rfl

/-- Every index of the array is in the block of the point its row falls in: row r in block r / 1000. -/
theorem covered (i : S50000x512.Idx) : ∃ t : Fin cfg1.N, (cfg1.win 6).flush t = true ∧ i ∈ ((cfg1.win 6).blk t).view.set := by
  have hi0 : (i 0).val < 50000 := (i 0).isLt
  have hi1 : (i 1).val < 512 := (i 1).isLt
  have hN : cfg1.N = 50 := Gen.N_1
  let t : Fin cfg1.N := ⟨(i 0).val / 1000, by rw [hN]; omega⟩
  have ht : t.val = (i 0).val / 1000 := rfl
  obtain ⟨-, -, -, -, -, -, -, -, -, -, -, -, e0, e1⟩ := block_indices t
  refine ⟨t, Gen.flush1_6 t, ?_⟩
  rw [mem_block]
  intro a
  match a with
  | ⟨0, _⟩ => show win1_6.index t (0 : Fin 2) * 1000 ≤ (i 0).val ∧ (i 0).val < win1_6.index t (0 : Fin 2) * 1000 + 1000; rw [e0, ht]; omega
  | ⟨1, _⟩ => show win1_6.index t (1 : Fin 2) * 512 ≤ (i 1).val ∧ (i 1).val < win1_6.index t (1 : Fin 2) * 512 + 512; rw [e1]; omega

/-- The output array after the region's fifty write-backs: at every index the normalised, rectified entry of the
    projected rows with the node's own entry added. -/
theorem final1 (c : Dev nD) :
    (Gen.dat1 (F := Ideal) V c).arrAt 6 cfg1.N
      = Cert.Sage.normK (V c main_v28) (V c main_arg0) (V c main_v36) (V c main_v37) (V c main_v38) (V c main_v39) :=
  (Gen.dat1 (F := Ideal) V c).arrAt_eq_of_cover 6 (normOf V c) (fun t _ => flushed_eq V c t) covered

end Cert.KernelIdeal.Region1

end
-- ==== Proof.LibPlainDot.lean ====
/-
  The host's plain matrix product and a matrix transpose, read at an index, at the ideal values.
  A `dot_general` with the dimension numbers of an ordinary product — an [A, K] matrix times a [K, B] matrix,
  contracting the left operand's columns with the right operand's rows, no batch axis — is, at (p, e), the sum over k
  of L(p, k) · R(k, e), a sum indexed by `Fin K` with both operands read at indices written by coordinates. The
  transpose of an [A, B] matrix read at (b, a) is the matrix at (a, b).
-/
import Idealize.ShloMosaic.PureOps.Ideal.Laws
import Idealize.ShloMosaic.Lib.ValueIdx
import Idealize.ShloMosaic.Lib.Pipeline.Value
import proofs.«132336_j48455821034228_1_alg».proof.Proof.LibPlainMatmul

noncomputable section

namespace Cert.LibPlainDot

open Idealize.ShloMosaic Idealize.ShloMosaic.ValueIdx

/-- A plain [A, K] × [K, B] `dot_general` on the host, read at (p, e): Σ_k L(p, k) · R(k, e). -/
theorem dotGeneral_plain_apply (A K B : Nat) {φ₁ φ₂ : FTy} (prec : Option ContractPrecision) (sched : HostSchedule)
    (lhs : FVec Ideal ⟨2, ![A, K]⟩ φ₁) (rhs : FVec Ideal ⟨2, ![K, B]⟩ φ₂) (p : Fin A) (e : Fin B) :
    FloatOps.dotGeneral (DotDims.plain A K B) prec sched lhs rhs (ix2 p e) = ∑ k : Fin K, lhs (ix2 p k) * rhs (ix2 k e) := by
  rw [Ideal.dotGeneral_apply, ← Equiv.sum_comp (contrEquiv1 (DotDims.plain A K B) K rfl rfl).symm]
  refine Finset.sum_congr rfl fun k _ => ?_
  rw [plain_lhsIdx, plain_rhsIdx]

/-- The transpose of an [A, B] matrix, read at (b, a), is the matrix at (a, b). -/
theorem transpose_swap_apply {α : Type} (A B : Nat) (x : (⟨2, ![A, B]⟩ : Shape).Idx → α)
    (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun d => match d with
    | ⟨0, _⟩ => rfl
    | ⟨1, _⟩ => rfl)

end Cert.LibPlainDot

end
-- ==== Proof.Bridge.lean ====
/-
  The two places where the programs differ, joined at the ideal values.

  The projections: the kernel multiplies the averaged rows and the nodes' rows by weight matrices transposed beforehand
  and adds the bias row last; the reference multiplies by the transposes, adds the bias after the first product and the
  second product last. Entry (p, e) is in both cases a sum over k of row p against row e of a weight matrix, twice, and
  entry e of the bias; the two groupings of the three terms agree because addition of extended reals is commutative and
  associative — no finiteness is needed.

  The normalisation: the kernel reads the column statistics, scale and shift as rows of shape [1, 512]; the reference
  spreads them as vectors of shape [512] over all rows. Entry (p, e) is in both cases built from the same six numbers
  by the same operations in the same order.
-/
import proofs.«132336_j48455821034228_1_alg».proof.Proof.Chains
import proofs.«132336_j48455821034228_1_alg».proof.Proof.LibPlainDot
import Idealize.ShloMosaic.Lib.ValueLayout
import Idealize.ShloMosaic.Lib.Pipeline.Value
import Idealize.ShloMosaic.PureOps.Ideal.Laws

noncomputable section

namespace Cert.Sage

open Idealize.ShloMosaic Idealize.ShloMosaic.ValueIdx Cert.ReferenceIdeal Cert.ReferenceIdeal.Facts₀

/-- A feature vector spread over all rows — [512] to [1, 512] to [50000, 512] — read at (p, e) is its entry e. -/
theorem spread_apply (v : Feat) (p : Fin 50000) (e : Fin 512) :
    broadcastInDim S50000x512 ![0, 1] bcast_S1x512_S50000x512_0_1 (broadcastInDim S1x512 ![1] bcast_S512_S1x512_1 v) (ix2 p e)
      = v (ix1 e) := by
  refine (broadcastInDim_apply ![0, 1] bcast_S1x512_S50000x512_0_1 _ (ix2 p e) (ix2 (0 : Fin 1) e) (fun a => ?_)).trans ?_
  · match a with
    | ⟨0, _⟩ => rfl
    | ⟨1, _⟩ => rfl
  · refine broadcastInDim_apply ![1] bcast_S512_S1x512_1 v (ix2 (0 : Fin 1) e) (ix1 e) (fun a => ?_)
    match a with
    | ⟨0, _⟩ => rfl

/-- The zero constant spread over the whole matrix is zero at every entry. -/
theorem zeros_apply (i : S50000x512.Idx) :
    broadcastInDim S50000x512 ![] bcast_S_S50000x512 (constant (F := Ideal) S_ .f32 0x00000000#32) i = 0 := by
  refine (broadcastInDim_apply ![] bcast_S_S50000x512 _ i ix0 (fun a => a.elim0)).trans ?_
  exact Ideal.ofBits_zero_f32

/-- A matrix against a transposed weight matrix on the host, read at (p, e): row p against row e of the weights. -/
theorem dot_transposed_apply (l : Mat) (W : Sq) (p : Fin 50000) (e : Fin 512) :
    Host.dotGeneral dot_S50000x512_S512x512_S50000x512_1_0_0_1_n_n none l (transpose S512x512 [1, 0] W transposes_S512x512_S512x512_1_0) (ix2 p e)
      = ∑ k : Fin 512, l (ix2 p k) * W (ix2 e k) := by
  refine (Cert.LibPlainDot.dotGeneral_plain_apply 50000 512 512 none .single l
    (transpose S512x512 [1, 0] W transposes_S512x512_S512x512_1_0) p e).trans ?_
  refine Finset.sum_congr rfl fun k _ => ?_
  rw [Cert.LibPlainDot.transpose_swap_apply 512 512 W transposes_S512x512_S512x512_1_0 k e]

/-- The kernel's projections, with the weights transposed beforehand (their change of float format the identity) and the
    bias as a row, are the reference's. -/
theorem hiddenK_eq_hiddenRef (agg x : Mat) (Wl : Sq) (bl : Feat) (Wr : Sq)
    (ht : S512x512.Transposes [1, 0] S512x512) (hb : FTy.bits .bf16 < FTy.bits .f32) (hs : S512.ShapeCasts S1x512) :
    hiddenK agg x (truncf .bf16 (transpose S512x512 [1, 0] Wl ht) hb) (truncf .bf16 (transpose S512x512 [1, 0] Wr ht) hb)
        (shapeCast S1x512 bl hs)
      = hiddenRef agg x Wl bl Wr := by
  funext i
  obtain ⟨p, e, rfl⟩ : ∃ (p : Fin 50000) (e : Fin 512), i = ix2 p e := ⟨i 0, i 1, eq_ix2 i⟩
  have hl : ∀ k : Fin 512, truncf .bf16 (transpose S512x512 [1, 0] Wl ht) hb (ix2 k e) = Wl (ix2 e k) := fun k =>
    Cert.LibPlainDot.transpose_swap_apply 512 512 Wl ht k e
  have hr : ∀ k : Fin 512, truncf .bf16 (transpose S512x512 [1, 0] Wr ht) hb (ix2 k e) = Wr (ix2 e k) := fun k =>
    Cert.LibPlainDot.transpose_swap_apply 512 512 Wr ht k e
  have hbias : shapeCast S1x512 bl hs (ix2 (0 : Fin 1) e) = bl (ix1 e) := shapeCast_a_1a_apply bl hs 0 e
  show ((∑ k : Fin 512, agg (ix2 p k) * truncf .bf16 (transpose S512x512 [1, 0] Wl ht) hb (ix2 k e))
      + ∑ k : Fin 512, x (ix2 p k) * truncf .bf16 (transpose S512x512 [1, 0] Wr ht) hb (ix2 k e))
      + shapeCast S1x512 bl hs (ix2 (0 : Fin 1) e)
    = (Host.dotGeneral dot_S50000x512_S512x512_S50000x512_1_0_0_1_n_n none agg (transpose S512x512 [1, 0] Wl transposes_S512x512_S512x512_1_0) (ix2 p e)
        + broadcastInDim S50000x512 ![0, 1] bcast_S1x512_S50000x512_0_1 (broadcastInDim S1x512 ![1] bcast_S512_S1x512_1 bl) (ix2 p e))
      + Host.dotGeneral dot_S50000x512_S512x512_S50000x512_1_0_0_1_n_n none x (transpose S512x512 [1, 0] Wr transposes_S512x512_S512x512_1_0) (ix2 p e)
  rw [dot_transposed_apply, dot_transposed_apply, spread_apply, hbias]
  simp only [hl, hr]
  exact add_right_comm _ _ _

/-- The kernel's normalisation, with the statistics, scale and shift as rows, is the reference's. -/
theorem normK_eq_tailRef (h x : Mat) (mu var gamma beta : Feat) (hs : S512.ShapeCasts S1x512) :
    normK h x (shapeCast S1x512 mu hs) (shapeCast S1x512 (invStd var) hs) (shapeCast S1x512 gamma hs) (shapeCast S1x512 beta hs)
      = tailRef h x mu var gamma beta := by
  funext i
  obtain ⟨p, e, rfl⟩ : ∃ (p : Fin 50000) (e : Fin 512), i = ix2 p e := ⟨i 0, i 1, eq_ix2 i⟩
  have row : ∀ v : Feat, shapeCast S1x512 v hs (ix2 (0 : Fin 1) e) = v (ix1 e) := fun v => shapeCast_a_1a_apply v hs 0 e
  show max ((((h (ix2 p e) - shapeCast S1x512 mu hs (ix2 (0 : Fin 1) e)) * shapeCast S1x512 (invStd var) hs (ix2 (0 : Fin 1) e))
        * shapeCast S1x512 gamma hs (ix2 (0 : Fin 1) e)) + shapeCast S1x512 beta hs (ix2 (0 : Fin 1) e)) 0 + x (ix2 p e)
    = max ((((h (ix2 p e)
          - broadcastInDim S50000x512 ![0, 1] bcast_S1x512_S50000x512_0_1 (broadcastInDim S1x512 ![1] bcast_S512_S1x512_1 mu) (ix2 p e))
          * broadcastInDim S50000x512 ![0, 1] bcast_S1x512_S50000x512_0_1 (broadcastInDim S1x512 ![1] bcast_S512_S1x512_1 (invStd var)) (ix2 p e))
          * broadcastInDim S50000x512 ![0, 1] bcast_S1x512_S50000x512_0_1 (broadcastInDim S1x512 ![1] bcast_S512_S1x512_1 gamma) (ix2 p e))
          + broadcastInDim S50000x512 ![0, 1] bcast_S1x512_S50000x512_0_1 (broadcastInDim S1x512 ![1] bcast_S512_S1x512_1 beta) (ix2 p e))
        (broadcastInDim S50000x512 ![] bcast_S_S50000x512 (constant (F := Ideal) S_ .f32 0x00000000#32) (ix2 p e))
      + x (ix2 p e)
  rw [row, row, row, row, spread_apply, spread_apply, spread_apply, spread_apply, zeros_apply]

end Cert.Sage

end
-- ==== Proof.KernelValue.lean ====
/-
  The idealized kernel program's result, as one function of its arguments.

  The second region's output array is, entry by entry, the normalisation of the first region's output array by the
  column statistics the host computes from it between the regions; the first region's output array is, entry by entry,
  the two projections of the edge average and of the nodes' rows that the host prepares before it. Read through the
  two joins of the projections and of the normalisation, the result is the reference's function of the seven arguments.
-/
import proofs.«132336_j48455821034228_1_alg».proof.Proof.KernelRun
import proofs.«132336_j48455821034228_1_alg».proof.Proof.KernelHost
import proofs.«132336_j48455821034228_1_alg».proof.Proof.Region0
import proofs.«132336_j48455821034228_1_alg».proof.Proof.Region1
import proofs.«132336_j48455821034228_1_alg».proof.Proof.Bridge

noncomputable section

namespace Cert.KernelIdeal.OutValue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- After the first region its output array holds the reference's projections of the launch arguments. -/
theorem hidden_eq (c : Dev nD) :
    W2 m ρ c (Proc.devRef .tc main_v28)
      = Cert.Sage.hiddenRef (Cert.Sage.meanAgg (m ((c : Thread nD τ).loc main_arg0)) (m ((c : Thread nD τ).loc main_arg1)))
          (m ((c : Thread nD τ).loc main_arg0)) (m ((c : Thread nD τ).loc main_arg2)) (m ((c : Thread nD τ).loc main_arg3))
          (m ((c : Thread nD τ).loc main_arg4)) := by
  have e22 : V1 m ρ c main_v22 = Cert.Sage.meanAgg (m ((c : Thread nD τ).loc main_arg0)) (m ((c : Thread nD τ).loc main_arg1)) :=
    HostValue.pre_v22 (W0 m ρ c)
  have ea0 : V1 m ρ c main_arg0 = m ((c : Thread nD τ).loc main_arg0) := HostValue.pre_arg0 (W0 m ρ c)
  have e24 := HostValue.pre_v24 (W0 m ρ c)
  have e26 := HostValue.pre_v26 (W0 m ρ c)
  have e27 := HostValue.pre_v27 (W0 m ρ c)
  have h := (W2_arr m ρ c 5).trans (Region0.final0 (V1 m ρ) c)
  refine h.trans ?_
  rw [e22, ea0]
  refine Eq.trans ?_ (Cert.Sage.hiddenK_eq_hiddenRef _ _ (m ((c : Thread nD τ).loc main_arg2)) (m ((c : Thread nD τ).loc main_arg3))
    (m ((c : Thread nD τ).loc main_arg4)) Facts₀.transposes_S512x512_S512x512_1_0 Facts₀.bitsLt_bf16_f32 Facts₀.shapeCasts_S512_S1x512)
  exact congrArg₂ (fun wl wr => Cert.Sage.hiddenK _ _ wl wr (V1 m ρ c main_v27)) e24 e26 |>.trans
    (congrArg (fun b => Cert.Sage.hiddenK _ _ _ _ b) e27)

/-- An argument that is no array of the first region is, after it, as launched. -/
theorem kept_arg5 (c : Dev nD) : W2 m ρ c (Proc.devRef .tc main_arg5) = m ((c : Thread nD τ).loc main_arg5) :=
  (W2_of_ne m ρ c main_arg5 (by decide)).trans (HostValue.pre_arg5 (W0 m ρ c))
theorem kept_arg6 (c : Dev nD) : W2 m ρ c (Proc.devRef .tc main_arg6) = m ((c : Thread nD τ).loc main_arg6) :=
  (W2_of_ne m ρ c main_arg6 (by decide)).trans (HostValue.pre_arg6 (W0 m ρ c))
/-- The nodes' rows, an input array of the first region, are after it as launched. -/
theorem kept_arg0 (c : Dev nD) : W2 m ρ c (Proc.devRef .tc main_arg0) = m ((c : Thread nD τ).loc main_arg0) :=
  ((W2_arr m ρ c 1).trans (((dat0 (V1 m ρ) c).arrAt_in 1 rfl _).trans (A_eq0 (V1 m ρ) c 1))).trans (HostValue.pre_arg0 (W0 m ρ c))

/-- THE RESULT: after the second region the result buffer holds the reference's function of the launch arguments. -/
theorem out_eq (c : Dev nD) :
    W6 m ρ c (Proc.devRef .tc main_v40)
      = Cert.Sage.outRef (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  have e28 : V5 m ρ c main_v28 = _ := (HostValue.mid_v28 (W2 m ρ c)).trans (hidden_eq m ρ c)
  have ea0 : V5 m ρ c main_arg0 = _ := (HostValue.mid_arg0 (W2 m ρ c)).trans (kept_arg0 m ρ c)
  have e36 : V5 m ρ c main_v36 = _ := HostValue.mid_v36 (W2 m ρ c)
  have e37 : V5 m ρ c main_v37 = _ := HostValue.mid_v37 (W2 m ρ c)
  have e38 : V5 m ρ c main_v38 = _ := HostValue.mid_v38 (W2 m ρ c)
  have e39 : V5 m ρ c main_v39 = _ := HostValue.mid_v39 (W2 m ρ c)
  rw [hidden_eq m ρ c] at e36 e37
  rw [kept_arg5 m ρ c] at e38
  rw [kept_arg6 m ρ c] at e39
  refine ((W6_arr m ρ c 6).trans (Region1.final1 (V5 m ρ) c)).trans ?_
  rw [e28, ea0, e36, e37, e38, e39]
  exact Cert.Sage.normK_eq_tailRef _ _ _ _ _ _ Facts₀.shapeCasts_S512_S1x512

end Cert.KernelIdeal.OutValue

end
-- ==== Proof.RefRun.lean ====
/-
  The reference program's run, read back.

  The reference's @main is a straight line of host operations once its three outlined functions (a column's
  variance, the select under it, the rectifier) are substituted at their call sites, each over the buffers its
  call names. Listed in order they are one sequence of eighty-five operations; every weakly fair execution
  of it terminates with each buffer at the composition of the operations that lead to it, applied to the
  arguments' launch contents, and with the arguments untouched. At the result buffer that composition is the
  layer's value as one function of the seven arguments.
-/
import proofs.«132336_j48455821034228_1_alg».proof.Proof.Chains
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's eighty-five operations, in order: forty-three of its own (the edge average, the two projections, the
    column means), the variance function's nineteen and the three of the select it calls, sixteen more of @main's
    own (the normalisation, scale and shift), the rectifier's three, and the last addition. -/
abbrev ops : List (HloOp τ sig (Elt F)) :=
  [ StableHlo.unary main_arg1 main_v0 ((extractStridedSlice S1x400000 ![0, 0] · slices_S2x400000_S1x400000_0_0) : (⟨S2x400000, .i32⟩ : BufTy).Contents (Elt F) → (⟨S1x400000, .i32⟩ : BufTy).Contents (Elt F)),
    StableHlo.reshape main_v0 main_v1 rfl shapeCasts_S1x400000_S400000,
    StableHlo.unary main_arg1 main_v2 ((extractStridedSlice S1x400000 ![1, 0] · slices_S2x400000_S1x400000_1_0) : (⟨S2x400000, .i32⟩ : BufTy).Contents (Elt F) → (⟨S1x400000, .i32⟩ : BufTy).Contents (Elt F)),
    StableHlo.reshape main_v2 main_v3 rfl shapeCasts_S1x400000_S400000,
    StableHlo.nullary main_c (constantI S_ 32 0#32),
    StableHlo.unary main_c main_v4 (broadcastInDim S400000 ![] bcast_S_S400000 : (⟨S_, .i32⟩ : BufTy).Contents (Elt F) → (⟨S400000, .i32⟩ : BufTy).Contents (Elt F)),
    StableHlo.binary main_v1 main_v4 main_v5 (cmpi .slt : (⟨S400000, .i32⟩ : BufTy).Contents (Elt F) → (⟨S400000, .i32⟩ : BufTy).Contents (Elt F) → (⟨S400000, .i1⟩ : BufTy).Contents (Elt F)),
    StableHlo.nullary main_c_0 (constantI S_ 32 50000#32),
    StableHlo.unary main_c_0 main_v6 (broadcastInDim S400000 ![] bcast_S_S400000 : (⟨S_, .i32⟩ : BufTy).Contents (Elt F) → (⟨S400000, .i32⟩ : BufTy).Contents (Elt F)),
    StableHlo.binary main_v1 main_v6 main_v7 (addi : (⟨S400000, .i32⟩ : BufTy).Contents (Elt F) → (⟨S400000, .i32⟩ : BufTy).Contents (Elt F) → (⟨S400000, .i32⟩ : BufTy).Contents (Elt F)),
    StableHlo.ternary main_v5 main_v7 main_v1 main_v8 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v8 main_v9 (broadcastInDim S400000x1 ![0] bcast_S400000_S400000x1_0 : (⟨S400000, .i32⟩ : BufTy).Contents (Elt F) → (⟨S400000x1, .i32⟩ : BufTy).Contents (Elt F)),
    StableHlo.binary main_arg0 main_v9 main_v10 ((fun x i => Host.gather gather_S50000x512_S400000x1_S400000x512_1_0_n_n_0_1_1512 x i) : (⟨S50000x512, .f32⟩ : BufTy).Contents (Elt F) → (⟨S400000x1, .i32⟩ : BufTy).Contents (Elt F) → (⟨S400000x512, .f32⟩ : BufTy).Contents (Elt F)),
    StableHlo.nullary main_cst (constant S_ .f32 0x00000000#32),
    StableHlo.unary main_cst main_v11 (broadcastInDim S50000x512 ![] bcast_S_S50000x512 : (⟨S_, .f32⟩ : BufTy).Contents (Elt F) → (⟨S50000x512, .f32⟩ : BufTy).Contents (Elt F)),
    StableHlo.unary main_v3 main_v12 (broadcastInDim S400000x1 ![0] bcast_S400000_S400000x1_0 : (⟨S400000, .i32⟩ : BufTy).Contents (Elt F) → (⟨S400000x1, .i32⟩ : BufTy).Contents (Elt F)),
    StableHlo.ternary main_v11 main_v12 main_v10 main_v13 ((fun x i u => Host.scatterAdd scatter_S50000x512_S400000x1_S400000x512_1_0_0_1 x i u) : (⟨S50000x512, .f32⟩ : BufTy).Contents (Elt F) → (⟨S400000x1, .i32⟩ : BufTy).Contents (Elt F) → (⟨S400000x512, .f32⟩ : BufTy).Contents (Elt F) → (⟨S50000x512, .f32⟩ : BufTy).Contents (Elt F)),
    StableHlo.nullary main_cst_1 (constant S_ .f32 0x3F800000#32),
    StableHlo.unary main_cst_1 main_v14 (broadcastInDim S400000 ![] bcast_S_S400000 : (⟨S_, .f32⟩ : BufTy).Contents (Elt F) → (⟨S400000, .f32⟩ : BufTy).Contents (Elt F)),
    StableHlo.nullary main_cst_2 (constant S_ .f32 0x00000000#32),
    StableHlo.unary main_cst_2 main_v15 (broadcastInDim S50000 ![] bcast_S_S50000 : (⟨S_, .f32⟩ : BufTy).Contents (Elt F) → (⟨S50000, .f32⟩ : BufTy).Contents (Elt F)),
    StableHlo.unary main_v3 main_v16 (broadcastInDim S400000x1 ![0] bcast_S400000_S400000x1_0 : (⟨S400000, .i32⟩ : BufTy).Contents (Elt F) → (⟨S400000x1, .i32⟩ : BufTy).Contents (Elt F)),
    StableHlo.ternary main_v15 main_v16 main_v14 main_v17 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    StableHlo.nullary main_cst_3 (constant S_ .f32 0x3F800000#32),
    StableHlo.unary main_cst_3 main_v18 (broadcastInDim S50000 ![] bcast_S_S50000 : (⟨S_, .f32⟩ : BufTy).Contents (Elt F) → (⟨S50000, .f32⟩ : BufTy).Contents (Elt F)),
    StableHlo.binary main_v17 main_v18 main_v19 (maximumf : (⟨S50000, .f32⟩ : BufTy).Contents (Elt F) → (⟨S50000, .f32⟩ : BufTy).Contents (Elt F) → (⟨S50000, .f32⟩ : BufTy).Contents (Elt F)),
    StableHlo.unary main_v19 main_v20 (broadcastInDim S50000x1 ![0] bcast_S50000_S50000x1_0 : (⟨S50000, .f32⟩ : BufTy).Contents (Elt F) → (⟨S50000x1, .f32⟩ : BufTy).Contents (Elt F)),
    StableHlo.unary main_v20 main_v21 (broadcastInDim S50000x512 ![0, 1] bcast_S50000x1_S50000x512_0_1 : (⟨S50000x1, .f32⟩ : BufTy).Contents (Elt F) → (⟨S50000x512, .f32⟩ : BufTy).Contents (Elt F)),
    StableHlo.binary main_v13 main_v21 main_v22 (Host.divf : (⟨S50000x512, .f32⟩ : BufTy).Contents (Elt F) → (⟨S50000x512, .f32⟩ : BufTy).Contents (Elt F) → (⟨S50000x512, .f32⟩ : BufTy).Contents (Elt F)),
    StableHlo.unary main_arg2 main_v23 ((transpose S512x512 [1, 0] · transposes_S512x512_S512x512_1_0) : (⟨S512x512, .f32⟩ : BufTy).Contents (Elt F) → (⟨S512x512, .f32⟩ : BufTy).Contents (Elt F)),
    StableHlo.binary main_v22 main_v23 main_v24 ((fun l r => Host.dotGeneral dot_S50000x512_S512x512_S50000x512_1_0_0_1_n_n none l r) : (⟨S50000x512, .f32⟩ : BufTy).Contents (Elt F) → (⟨S512x512, .f32⟩ : BufTy).Contents (Elt F) → (⟨S50000x512, .f32⟩ : BufTy).Contents (Elt F)),
    StableHlo.unary main_arg3 main_v25 (broadcastInDim S1x512 ![1] bcast_S512_S1x512_1 : (⟨S512, .f32⟩ : BufTy).Contents (Elt F) → (⟨S1x512, .f32⟩ : BufTy).Contents (Elt F)),
    StableHlo.unary main_v25 main_v26 (broadcastInDim S50000x512 ![0, 1] bcast_S1x512_S50000x512_0_1 : (⟨S1x512, .f32⟩ : BufTy).Contents (Elt F) → (⟨S50000x512, .f32⟩ : BufTy).Contents (Elt F)),
    StableHlo.binary main_v24 main_v26 main_v27 (addf : (⟨S50000x512, .f32⟩ : BufTy).Contents (Elt F) → (⟨S50000x512, .f32⟩ : BufTy).Contents (Elt F) → (⟨S50000x512, .f32⟩ : BufTy).Contents (Elt F)),
    StableHlo.unary main_arg4 main_v28 ((transpose S512x512 [1, 0] · transposes_S512x512_S512x512_1_0) : (⟨S512x512, .f32⟩ : BufTy).Contents (Elt F) → (⟨S512x512, .f32⟩ : BufTy).Contents (Elt F)),
    StableHlo.binary main_arg0 main_v28 main_v29 ((fun l r => Host.dotGeneral dot_S50000x512_S512x512_S50000x512_1_0_0_1_n_n none l r) : (⟨S50000x512, .f32⟩ : BufTy).Contents (Elt F) → (⟨S512x512, .f32⟩ : BufTy).Contents (Elt F) → (⟨S50000x512, .f32⟩ : BufTy).Contents (Elt F)),
    StableHlo.binary main_v27 main_v29 main_v30 (addf : (⟨S50000x512, .f32⟩ : BufTy).Contents (Elt F) → (⟨S50000x512, .f32⟩ : BufTy).Contents (Elt F) → (⟨S50000x512, .f32⟩ : BufTy).Contents (Elt F)),
    StableHlo.nullary main_cst_4 (constant S_ .f32 0x00000000#32),
    StableHlo.binary main_v30 main_cst_4 main_v31 ((fun x v => Host.reduceAdd x v reducesTo_S50000x512_S512_d0 h_S_) : (⟨S50000x512, .f32⟩ : BufTy).Contents (Elt F) → (⟨S_, .f32⟩ : BufTy).Contents (Elt F) → (⟨S512, .f32⟩ : BufTy).Contents (Elt F)),
    StableHlo.nullary main_cst_5 (constant S_ .f32 0x47435000#32),
    StableHlo.unary main_cst_5 main_v32 (broadcastInDim S512 ![] bcast_S_S512 : (⟨S_, .f32⟩ : BufTy).Contents (Elt F) → (⟨S512, .f32⟩ : BufTy).Contents (Elt F)),
    StableHlo.binary main_v31 main_v32 main_v33 (Host.divf : (⟨S512, .f32⟩ : BufTy).Contents (Elt F) → (⟨S512, .f32⟩ : BufTy).Contents (Elt F) → (⟨S512, .f32⟩ : BufTy).Contents (Elt F)),
    StableHlo.nullary main_c_6 (constantI S_ 32 0#32),
    StableHlo.TRef.nullary (.of main_call0_cst : StableHlo.TRef sig ⟨S_, .f32⟩) (constant S_ .f32 0x00000000#32),
    StableHlo.TRef.binary (.of main_v30 : StableHlo.TRef sig ⟨S50000x512, .f32⟩) (.of main_call0_cst : StableHlo.TRef sig ⟨S_, .f32⟩) (.of main_call0_v0 : StableHlo.TRef sig ⟨S512, .f32⟩) (fun x v => Host.reduceAdd x v reducesTo_S50000x512_S512_d0 h_S_),
    StableHlo.TRef.unary (.of main_call0_v0 : StableHlo.TRef sig ⟨S512, .f32⟩) (.of main_call0_v1 : StableHlo.TRef sig ⟨S1x512, .f32⟩) (broadcastInDim S1x512 ![1] bcast_S512_S1x512_1),
    StableHlo.TRef.nullary (.of main_call0_cst_0 : StableHlo.TRef sig ⟨S_, .f32⟩) (constant S_ .f32 0x47435000#32),
    StableHlo.TRef.unary (.of main_call0_cst_0 : StableHlo.TRef sig ⟨S_, .f32⟩) (.of main_call0_v2 : StableHlo.TRef sig ⟨S1x512, .f32⟩) (broadcastInDim S1x512 ![] bcast_S_S1x512),
    StableHlo.TRef.binary (.of main_call0_v1 : StableHlo.TRef sig ⟨S1x512, .f32⟩) (.of main_call0_v2 : StableHlo.TRef sig ⟨S1x512, .f32⟩) (.of main_call0_v3 : StableHlo.TRef sig ⟨S1x512, .f32⟩) Host.divf,
    StableHlo.TRef.unary (.of main_call0_v3 : StableHlo.TRef sig ⟨S1x512, .f32⟩) (.of main_call0_v4 : StableHlo.TRef sig ⟨S50000x512, .f32⟩) (broadcastInDim S50000x512 ![0, 1] bcast_S1x512_S50000x512_0_1),
    StableHlo.TRef.binary (.of main_v30 : StableHlo.TRef sig ⟨S50000x512, .f32⟩) (.of main_call0_v4 : StableHlo.TRef sig ⟨S50000x512, .f32⟩) (.of main_call0_v5 : StableHlo.TRef sig ⟨S50000x512, .f32⟩) subf,
    StableHlo.TRef.binary (.of main_call0_v5 : StableHlo.TRef sig ⟨S50000x512, .f32⟩) (.of main_call0_v5 : StableHlo.TRef sig ⟨S50000x512, .f32⟩) (.of main_call0_v6 : StableHlo.TRef sig ⟨S50000x512, .f32⟩) mulf,
    StableHlo.TRef.unary (.of main_c_6 : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x47435000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S50000x512, .f32⟩) (.of main_call0_cst_2 : StableHlo.TRef sig ⟨S_, .f32⟩) (.of main_call0_v9 : StableHlo.TRef sig ⟨S512, .f32⟩) (fun x v => Host.reduceAdd x v reducesTo_S50000x512_S512_d0 h_S_),
    StableHlo.TRef.unary (.of main_call0_v8 : StableHlo.TRef sig ⟨S_, .f32⟩) (.of main_call0_v10 : StableHlo.TRef sig ⟨S512, .f32⟩) (broadcastInDim S512 ![] bcast_S_S512),
    StableHlo.TRef.binary (.of main_call0_v9 : StableHlo.TRef sig ⟨S512, .f32⟩) (.of main_call0_v10 : StableHlo.TRef sig ⟨S512, .f32⟩) (.of main_call0_v11 : StableHlo.TRef sig ⟨S512, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v12 : StableHlo.TRef sig ⟨S_, .i1⟩) (cmpf .ogt),
    StableHlo.TRef.nullary (.of main_call0_cst_4 : StableHlo.TRef sig ⟨S_, .f32⟩) (constant S_ .f32 0x7FC00000#32),
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S512, .f32⟩) (broadcastInDim S512 ![] bcast_S_S512),
    StableHlo.TRef.ternary (.of main_call0_v12 : StableHlo.TRef sig ⟨S_, .i1⟩) (.of main_call0_v11 : StableHlo.TRef sig ⟨S512, .f32⟩) (.of main_call0_call0_v1 : StableHlo.TRef sig ⟨S512, .f32⟩) (.of main_v34 : StableHlo.TRef sig ⟨S512, .f32⟩) (fun p a b => select (broadcastInDim S512 ![] bcast_S_S512 p) a b),
    StableHlo.unary main_v33 main_v35 (broadcastInDim S1x512 ![1] bcast_S512_S1x512_1 : (⟨S512, .f32⟩ : BufTy).Contents (Elt F) → (⟨S1x512, .f32⟩ : BufTy).Contents (Elt F)),
    StableHlo.unary main_v35 main_v36 (broadcastInDim S50000x512 ![0, 1] bcast_S1x512_S50000x512_0_1 : (⟨S1x512, .f32⟩ : BufTy).Contents (Elt F) → (⟨S50000x512, .f32⟩ : BufTy).Contents (Elt F)),
    StableHlo.binary main_v30 main_v36 main_v37 (subf : (⟨S50000x512, .f32⟩ : BufTy).Contents (Elt F) → (⟨S50000x512, .f32⟩ : BufTy).Contents (Elt F) → (⟨S50000x512, .f32⟩ : BufTy).Contents (Elt F)),
    StableHlo.nullary main_cst_7 (constant S_ .f32 0x3727C5AC#32),
    StableHlo.unary main_cst_7 main_v38 (broadcastInDim S512 ![] bcast_S_S512 : (⟨S_, .f32⟩ : BufTy).Contents (Elt F) → (⟨S512, .f32⟩ : BufTy).Contents (Elt F)),
    StableHlo.binary main_v34 main_v38 main_v39 (addf : (⟨S512, .f32⟩ : BufTy).Contents (Elt F) → (⟨S512, .f32⟩ : BufTy).Contents (Elt F) → (⟨S512, .f32⟩ : BufTy).Contents (Elt F)),
    StableHlo.unary main_v39 main_v40 (Host.rsqrt : (⟨S512, .f32⟩ : BufTy).Contents (Elt F) → (⟨S512, .f32⟩ : BufTy).Contents (Elt F)),
    StableHlo.unary main_v40 main_v41 (broadcastInDim S1x512 ![1] bcast_S512_S1x512_1 : (⟨S512, .f32⟩ : BufTy).Contents (Elt F) → (⟨S1x512, .f32⟩ : BufTy).Contents (Elt F)),
    StableHlo.unary main_v41 main_v42 (broadcastInDim S50000x512 ![0, 1] bcast_S1x512_S50000x512_0_1 : (⟨S1x512, .f32⟩ : BufTy).Contents (Elt F) → (⟨S50000x512, .f32⟩ : BufTy).Contents (Elt F)),
    StableHlo.binary main_v37 main_v42 main_v43 (mulf : (⟨S50000x512, .f32⟩ : BufTy).Contents (Elt F) → (⟨S50000x512, .f32⟩ : BufTy).Contents (Elt F) → (⟨S50000x512, .f32⟩ : BufTy).Contents (Elt F)),
    StableHlo.unary main_arg5 main_v44 (broadcastInDim S1x512 ![1] bcast_S512_S1x512_1 : (⟨S512, .f32⟩ : BufTy).Contents (Elt F) → (⟨S1x512, .f32⟩ : BufTy).Contents (Elt F)),
    StableHlo.unary main_v44 main_v45 (broadcastInDim S50000x512 ![0, 1] bcast_S1x512_S50000x512_0_1 : (⟨S1x512, .f32⟩ : BufTy).Contents (Elt F) → (⟨S50000x512, .f32⟩ : BufTy).Contents (Elt F)),
    StableHlo.binary main_v43 main_v45 main_v46 (mulf : (⟨S50000x512, .f32⟩ : BufTy).Contents (Elt F) → (⟨S50000x512, .f32⟩ : BufTy).Contents (Elt F) → (⟨S50000x512, .f32⟩ : BufTy).Contents (Elt F)),
    StableHlo.unary main_arg6 main_v47 (broadcastInDim S1x512 ![1] bcast_S512_S1x512_1 : (⟨S512, .f32⟩ : BufTy).Contents (Elt F) → (⟨S1x512, .f32⟩ : BufTy).Contents (Elt F)),
    StableHlo.unary main_v47 main_v48 (broadcastInDim S50000x512 ![0, 1] bcast_S1x512_S50000x512_0_1 : (⟨S1x512, .f32⟩ : BufTy).Contents (Elt F) → (⟨S50000x512, .f32⟩ : BufTy).Contents (Elt F)),
    StableHlo.binary main_v46 main_v48 main_v49 (addf : (⟨S50000x512, .f32⟩ : BufTy).Contents (Elt F) → (⟨S50000x512, .f32⟩ : BufTy).Contents (Elt F) → (⟨S50000x512, .f32⟩ : BufTy).Contents (Elt F)),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S50000x512, .f32⟩) (broadcastInDim S50000x512 ![] bcast_S_S50000x512),
    StableHlo.TRef.binary (.of main_v49 : StableHlo.TRef sig ⟨S50000x512, .f32⟩) (.of main_call1_v0 : StableHlo.TRef sig ⟨S50000x512, .f32⟩) (.of main_v50 : StableHlo.TRef sig ⟨S50000x512, .f32⟩) maximumf,
    StableHlo.binary main_v50 main_arg0 main_v51 (addf : (⟨S50000x512, .f32⟩ : BufTy).Contents (Elt F) → (⟨S50000x512, .f32⟩ : BufTy).Contents (Elt F) → (⟨S50000x512, .f32⟩ : BufTy).Contents (Elt F)) ]

-- the line is eighty-five steps in sequence: the depth of the chain is the number of its statements
set_option maxRecDepth 4096 in
set_option maxHeartbeats 4000000 in
/-- @main is that straight line: its two windows in order, the functions' definitions unfolded at their calls and
    the calls' records at their fields; both sides are one chain of steps once sequencing is re-associated. -/
theorem main_eq (c : Dev nD) : main (F := F) c = seq ops := by
  simp only [main, main_part0, main_part1, fn_var.body, fn_where.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., nullary_bufs_sub ..,
    unary_bufs_sub .., nullary_bufs_sub .., unary_bufs_sub .., unary_bufs_sub .., ternary_bufs_sub .., nullary_bufs_sub ..,
    unary_bufs_sub .., binary_bufs_sub .., unary_bufs_sub .., unary_bufs_sub .., binary_bufs_sub .., unary_bufs_sub ..,
    binary_bufs_sub .., unary_bufs_sub .., unary_bufs_sub .., binary_bufs_sub .., unary_bufs_sub .., binary_bufs_sub ..,
    binary_bufs_sub .., nullary_bufs_sub .., binary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..,
    unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..,
    unary_bufs_sub .., unary_bufs_sub .., binary_bufs_sub .., nullary_bufs_sub .., unary_bufs_sub .., binary_bufs_sub ..,
    binary_bufs_sub ..⟩

/-- An argument's buffer is written by no operation of the line. -/
theorem arg_eq0 (V : Valuation τ sig (Elt F)) :
    after ops V (main_arg0 : DevRef τ sig) = V (main_arg0 : DevRef τ sig) := by
  after_results_simp

theorem arg_eq1 (V : Valuation τ sig (Elt F)) :
    after ops V (main_arg1 : DevRef τ sig) = V (main_arg1 : DevRef τ sig) := by
  after_results_simp

theorem arg_eq2 (V : Valuation τ sig (Elt F)) :
    after ops V (main_arg2 : DevRef τ sig) = V (main_arg2 : DevRef τ sig) := by
  after_results_simp

theorem arg_eq3 (V : Valuation τ sig (Elt F)) :
    after ops V (main_arg3 : DevRef τ sig) = V (main_arg3 : DevRef τ sig) := by
  after_results_simp

theorem arg_eq4 (V : Valuation τ sig (Elt F)) :
    after ops V (main_arg4 : DevRef τ sig) = V (main_arg4 : DevRef τ sig) := by
  after_results_simp

theorem arg_eq5 (V : Valuation τ sig (Elt F)) :
    after ops V (main_arg5 : DevRef τ sig) = V (main_arg5 : DevRef τ sig) := by
  after_results_simp

theorem arg_eq6 (V : Valuation τ sig (Elt F)) :
    after ops V (main_arg6 : DevRef τ sig) = V (main_arg6 : DevRef τ sig) := by
  after_results_simp

attribute [local irreducible] Host.reduceAdd Host.scatterAdd Host.gather Host.rsqrt Host.divf in
set_option maxRecDepth 8192 in
set_option maxHeartbeats 2000000 in
/-- What the result buffer holds after the line, from any contents: each operation's value at its own buffer is its
    function of the values at its operands' buffers, so the fold at the result is the composition of the operations
    on the path to it — the edge average, the two projections and the bias, the column mean and variance, the
    normalisation, scale, shift, rectification and the node's own row added back — applied to the contents of the
    seven argument buffers. The equation holds whatever the sums, the gather, the quotient and the reciprocal
    root compute: both sides apply them to equal operands. -/
theorem out_eq (V : Valuation τ sig (Elt Ideal)) :
    after ops V (main_v51 : DevRef τ sig)
      = Cert.Sage.outRef (V (main_arg0 : DevRef τ sig)) (V (main_arg1 : DevRef τ sig)) (V (main_arg2 : DevRef τ sig))
          (V (main_arg3 : DevRef τ sig)) (V (main_arg4 : DevRef τ sig)) (V (main_arg5 : DevRef τ sig)) (V (main_arg6 : DevRef τ sig)) := by
  after_results_simp
  rfl

/-- On every device, from any memory with zero counters: every weakly fair execution of @main terminates with the
    result buffer at the layer's value of the arguments' launch contents, and the seven arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v51)
          = Cert.Sage.outRef (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v51).trans (out_eq _),
      (h c main_arg0).trans (arg_eq0 _),
      (h c main_arg1).trans (arg_eq1 _),
      (h c main_arg2).trans (arg_eq2 _),
      (h c main_arg3).trans (arg_eq3 _),
      (h c main_arg4).trans (arg_eq4 _),
      (h c main_arg5).trans (arg_eq5 _),
      (h c main_arg6).trans (arg_eq6 _)⟩)
    (run_seq scopedRefs_eq scopedSems_eq defs main (fun _ => ops) main_eq (fun _ => ops_sub) m ρ)

end Cert.ReferenceIdeal.RefValue

end
-- ==== Proof.lean ====
/-
  A graph layer as two kernels among host operations, against the same layer written with whole-array operations: the
  two compute the same function of their seven arguments on the extended reals.

  Both programs average, for every node, the source rows of the edges that end at it — the same host operations on both
  sides. The kernel program then forms, block of a thousand rows by block, the projections of the averaged rows and of
  the nodes' own rows by the two weight matrices (transposed beforehand; rounding them to a shorter float format is the
  identity on the extended reals) plus the bias; the reference forms the same projections with whole-array products and
  adds the three terms in another order, which the commutativity and associativity of addition absorb. Both programs
  then take every column's mean and variance over all nodes by the same host operations. The kernel program normalises,
  scales, shifts, rectifies and adds the nodes' rows back block by block, reading the statistics as rows; the reference
  does the same on whole arrays, the statistics spread over all rows: entry by entry the same six numbers meet the same
  operations in the same order. No step uses that the inputs are finite.

  The three frames: the two kernel programs' are the launch theorem over their segments; the reference's is its run
  with the result dropped. The idealization rewrote nothing, so what it preserves is trivially so.
-/
import proofs.«132336_j48455821034228_1_alg».proof.Defs
import proofs.«132336_j48455821034228_1_alg».proof.Proof.Gen.Kernel
import proofs.«132336_j48455821034228_1_alg».proof.Proof.Gen.Kernel.Skeleton
import proofs.«132336_j48455821034228_1_alg».proof.Proof.Gen.Kernel.Launch
import proofs.«132336_j48455821034228_1_alg».proof.Proof.Gen.Kernel.Points
import proofs.«132336_j48455821034228_1_alg».proof.Proof.Gen.Kernel.Frame
import proofs.«132336_j48455821034228_1_alg».proof.Proof.Gen.KernelIdeal
import proofs.«132336_j48455821034228_1_alg».proof.Proof.Gen.KernelIdeal.Skeleton
import proofs.«132336_j48455821034228_1_alg».proof.Proof.Gen.KernelIdeal.Launch
import proofs.«132336_j48455821034228_1_alg».proof.Proof.Gen.KernelIdeal.Points
import proofs.«132336_j48455821034228_1_alg».proof.Proof.Gen.KernelIdeal.Frame
import proofs.«132336_j48455821034228_1_alg».proof.Proof.Gen.ReferenceIdeal
import proofs.«132336_j48455821034228_1_alg».proof.Proof.Gen.Pre_finite_inputs
import proofs.«132336_j48455821034228_1_alg».proof.Proof.KernelRun
import proofs.«132336_j48455821034228_1_alg».proof.Proof.KernelValue
import proofs.«132336_j48455821034228_1_alg».proof.Proof.RefRun
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its run, the result dropped. -/
theorem frame_referenceIdeal : Cert.frame_ReferenceIdeal := fun m ρ _ =>
  (θ_run Cert.ReferenceIdeal.defs _ _).mono (fun _ h c => (h c).2) (Cert.ReferenceIdeal.RefValue.run m ρ)

/-- The idealization rewrote no operation. -/
theorem preserves : Cert.preserves_Kernel_KernelIdeal := trivial

/-- From memories that agree on the seven arguments both programs end with the same result: the reference's function
    of the arguments. -/
theorem algebraic : Cert.algebraic_KernelIdeal_ReferenceIdeal := by
  intro m ρ m' ρ' _ hagree
  refine ⟨fun c => Cert.Sage.outRef
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.OutValue.out_eq m ρ c), (h c).2⟩)
      (Cert.KernelIdeal.RunValue.run_out (F := Ideal) m ρ)
  · refine (θ_run Cert.ReferenceIdeal.defs _ _).mono (fun _ h c => ⟨(h c).1.trans ?_, (h c).2⟩)
      (Cert.ReferenceIdeal.RefValue.run m' ρ')
    rw [(hagree c).1, (hagree c).2.1, (hagree c).2.2.1, (hagree c).2.2.2.1, (hagree c).2.2.2.2.1,
      (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
